-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S131x128 : S_.BroadcastsInDim S131x128 (![] : Fin 0 → Fin S131x128.rank)
  reducesTo_S131x128_S_d0_1 : S131x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x3 .f32) (main_arg6 : FVec F S3 .f32) (main_arg7 : FVec F S131x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg5
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S131x128 .f32 := Host.absf main_arg7
  let main_cst_10 : FVec F S_ .f32 := constant S_ .f32 0x7F800000#32
  let main_v30 : FVec F S131x128 .f32 := broadcastInDim S131x128 ![] bcast_S_S131x128 main_cst_10
  let main_v31 : IVec S131x128 1 := cmpf .olt main_v29 main_v30
  let main_c_11 : IVec S_ 1 := constantI S_ 1 1#1
  let main_v32 : IVec S_ 1 := (fun x v => Host.reduce IntOp.andi x v reducesTo_S131x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S50000x3 .f32) (main_arg2 : IVec S2x800000 32) (main_arg3 : FVec F S128x128 .f32) (main_arg4 : FVec F S128 .f32) (main_arg5 : FVec F S128x3 .f32) (main_arg6 : FVec F S3 .f32) (main_arg7 : FVec F S131x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S50000 : Shape := ⟨1, ![50000]⟩
abbrev S50000x1 : Shape := ⟨2, ![50000, 1]⟩
abbrev S3x128 : Shape := ⟨2, ![3, 128]⟩
abbrev S2000x128 : Shape := ⟨2, ![2000, 128]⟩
abbrev S2000x3 : Shape := ⟨2, ![2000, 3]⟩
abbrev S2000x1 : Shape := ⟨2, ![2000, 1]⟩
abbrev S1x128 : Shape := ⟨2, ![1, 128]⟩
abbrev S1x3 : Shape := ⟨2, ![1, 3]⟩

abbrev nBuf : Space → Nat
  | .hbm => 51
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x3, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S_, .f32⟩
  | .hbm, ⟨38, _⟩ => ⟨S50000x3, .f32⟩
  | .hbm, ⟨39, _⟩ => ⟨S800000x1, .i32⟩
  | .hbm, ⟨40, _⟩ => ⟨S50000x3, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S50000x1, .f32⟩
  | .hbm, ⟨48, _⟩ => ⟨S3x128, .f32⟩
  | .hbm, ⟨49, _⟩ => ⟨S128x128, .f32⟩
  | .hbm, ⟨50, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x3, .f32⟩
  | .local _ .vmem, ⟨3, _⟩ => ⟨S2000x3, .f32⟩
  | .local _ .vmem, ⟨4, _⟩ => ⟨S2000x128, .f32⟩
  | .local _ .vmem, ⟨5, _⟩ => ⟨S2000x128, .f32⟩
  | .local _ .vmem, ⟨6, _⟩ => ⟨S2000x3, .f32⟩
  | .local _ .vmem, ⟨7, _⟩ => ⟨S2000x3, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S128, .f32⟩
  | .local _ .vmem, ⟨12, _⟩ => ⟨S128x3, .f32⟩
  | .local _ .vmem, ⟨13, _⟩ => ⟨S3, .f32⟩
  | .local _ .vmem, ⟨14, _⟩ => ⟨S3x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000x3 : S_.BroadcastsInDim S50000x3 (![] : Fin 0 → Fin S50000x3.rank)
  bcast_S_S50000 : S_.BroadcastsInDim S50000 (![] : Fin 0 → Fin S50000.rank)
  shapeCasts_S50000_S50000x1 : S50000.ShapeCasts S50000x1
  slices_S131x128_S3x128_0_0 : S131x128.Slices ![0, 0] S3x128
  slices_S131x128_S128x128_3_0 : S131x128.Slices ![3, 0] S128x128
  inb_S2000x128_S2000x128_0_0 : ∀ a, (![0, 0] : Fin 2 → Nat) a + S2000x128.size a ≤ S2000x128.size a
  h_S2000x128 : 0 < S2000x128.numel
  inb_S2000x3_S2000x3_0_0 : ∀ a, (![0, 0] : Fin 2 → Nat) a + S2000x3.size a ≤ S2000x3.size a
  h_S2000x3 : 0 < S2000x3.numel
  shapeCasts_S2000x128_S2000x128 : S2000x128.ShapeCasts S2000x128
  shapeCasts_S2000x3_S2000x3 : S2000x3.ShapeCasts S2000x3
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  broadcasts_S2000x1_S2000x3 : S2000x1.Broadcasts S2000x3
  broadcasts_S2000x1_S2000x128 : S2000x1.Broadcasts S2000x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  dot_S2000x3_S3x128_S2000x128_1_0_0_1_n_n_wf : DotDims.WF S2000x3 S3x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S50000x3.size a
  hwx0_1 : ∀ i : grid0.Coords, EltTy.bits .f32 = 32 ∨ (Rect.block (s := S50000x3) S2000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S50000x3.size a
  hwx0_3 : ∀ i : grid0.Coords, EltTy.bits .f32 = 32 ∨ (Rect.block (s := S50000x3) S2000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .f32 = 32 ∨ (Rect.block (s := S128x3) S128x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S50000x128.size a
  hwx0_14 : ∀ i : grid0.Coords, EltTy.bits .f32 = 32 ∨ (Rect.block (s := S50000x128) S2000x128.size (cc0_transform_14 i) (hinb0_14 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def dot_S2000x3_S3x128_S2000x128_1_0_0_1_n_n : DotDims S2000x3 S3x128 S2000x128 where
  lhsContracting := [1]
  rhsContracting := [0]
  lhsNonContracting := [0]
  rhsNonContracting := [1]
  lhsBatch := []
  rhsBatch := []
  wf := dot_S2000x3_S3x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v31) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x128 : Shape := ⟨2, ![1, 128]⟩
abbrev S_ : Shape := ⟨0, ![]⟩
abbrev S1x3 : Shape := ⟨2, ![1, 3]⟩
abbrev S1x800000 : Shape := ⟨2, ![1, 800000]⟩
abbrev S800000 : Shape := ⟨1, ![800000]⟩
abbrev S800000x1 : Shape := ⟨2, ![800000, 1]⟩
abbrev S800000x3 : Shape := ⟨2, ![800000, 3]⟩
abbrev S800000x128 : Shape := ⟨2, ![800000, 128]⟩
abbrev S800000x131 : Shape := ⟨2, ![800000, 131]⟩
abbrev S50000x131 : Shape := ⟨2, ![50000, 131]⟩
abbrev S50000 : Shape := ⟨1, ![50000]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | .hbm, ⟨18, _⟩ => ⟨S50000x3, .f32⟩
  | .hbm, ⟨19, _⟩ => ⟨S1x3, .f32⟩
  | .hbm, ⟨20, _⟩ => ⟨S50000x3, .f32⟩
  | .hbm, ⟨21, _⟩ => ⟨S50000x3, .f32⟩
  | .hbm, ⟨22, _⟩ => ⟨S50000x3, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x3, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S800000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S800000x3, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x131, .f32⟩
  | .hbm, ⟨66, _⟩ => ⟨S_, .f32⟩
  | .hbm, ⟨67, _⟩ => ⟨S50000x131, .f32⟩
  | .hbm, ⟨68, _⟩ => ⟨S800000x1, .i32⟩
  | .hbm, ⟨69, _⟩ => ⟨S50000x131, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x131, .f32⟩
  | .hbm, ⟨81, _⟩ => ⟨S50000x131, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x3_S800000x128_S800000x131_d1 : Shape.Concatenates [S800000x3, S800000x128] S800000x131 1
  bcast_S_S50000x131 : S_.BroadcastsInDim S50000x131 (![] : Fin 0 → Fin S50000x131.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x131_0_1 : S50000x1.BroadcastsInDim S50000x131 (![0, 1] : Fin 2 → Fin S50000x131.rank)
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  scatter_S50000x131_S800000x1_S800000x131_1_0_0_1_wf : ScatterDims.WF S50000x131 S800000x1 S800000x131 [1] [0] [0] 1
  scatter_S50000_S800000x1_S800000_n_0_0_1_wf : ScatterDims.WF S50000 S800000x1 S800000 [] [0] [0] 1
  dot_S50000x131_S131x128_S50000x128_1_0_0_1_n_n_wf : DotDims.WF S50000x131 S131x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x131_S800000x1_S800000x131_1_0_0_1 : ScatterDims S50000x131 S800000x1 S800000x131 where
  updateWindowDims := [1]
  insertedWindowDims := [0]
  scatterDimsToOperandDims := [0]
  indexVectorDim := 1
  wf := scatter_S50000x131_S800000x1_S800000x131_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x131_S131x128_S50000x128_1_0_0_1_n_n : DotDims S50000x131 S131x128 S50000x128 where
  lhsContracting := [1]
  rhsContracting := [0]
  lhsNonContracting := [0]
  rhsNonContracting := [1]
  lhsBatch := []
  rhsBatch := []
  wf := dot_S50000x131_S131x128_S50000x128_1_0_0_1_n_n_wf

class Facts : Prop extends Facts₀ where

variable [Facts]
-- ==== Proof.LibScatterRows.lean ====
/-
  THE ACCUMULATING ROW SCATTER READ AT AN INDEX, at the ideal instance (floats are extended reals).

  A row scatter adds update row `e` of an `[E, C]` array of updates into row `idx[e, 0]` of an `[N, C]` operand:
  `"stablehlo.scatter"` with an `add` body and dimension numbers update_window_dims = [1], inserted_window_dims = [0],
  scatter_dims_to_operand_dims = [0], index_vector_dim = 1, over scatter indices of shape `[E, 1]` (what a segment sum
  over the leading axis lowers to). The scatter index is read SIGNED and is NOT clamped: an update row whose index is
  outside `[0, N)` is dropped. At the ideal instance the result is the exact sum, so element `(n, q)` of the result is

      x[n, q] + ∑ e : Fin E, if idx[e, 0] = n then upd[e, q] else 0

  (`scatterAdd_rows_apply`): a plain sum over the `E` update rows whose landing condition `idx[e, 0] = n` does not
  mention the column `q` nor the column count `C` — two row scatters through the same indices, of different widths,
  are read with one common condition. The extents `N`, `E`, `C` and the index width `w` are arbitrary; nothing here
  enumerates a row range.

  Road: on these dimension numbers the window start is the row's scatter index on axis 0 and `0` on axis 1
  (`start_zero`, `start_one`), the window coordinate is `0` on axis 0 and the update's column on axis 1
  (`window_zero`, `window_one`); so an update index `j` lands at `(n, q)` iff `idx[j 0, 0] = n` and `j 1 = q`
  (`resultIdx?_eq_some_iff`; the bounds `0 ≤ · < N`, `· < C` hold by themselves then). The filtered sum over update
  indices becomes a double sum over (row, column) whose inner sum has exactly one nonzero term.
-/
import Idealize.ShloMosaic.PureOps.Ideal
import Idealize.ShloMosaic.PureOps.Contract
import Idealize.ShloMosaic.Lib.ValueIdx

noncomputable section

open scoped BigOperators

namespace Idealize.ShloMosaic.ScatterRows

open Idealize.ShloMosaic Idealize.ShloMosaic.ValueIdx

/-- The dimension numbers of a row scatter of `[E, C]` updates into an `[N, C]` operand through `[E, 1]` scatter
    indices: the updates' axis 1 is the window axis, the operand's axis 0 is inserted and is the one the scatter
    index addresses, the index vector lies along the indices' axis 1. `wf` is any proof of the conditions. -/
abbrev rowDims (N E C : Nat)
    (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat}
  (wf : ScatterDims.WF (⟨2, ![N, C]⟩ : Shape) ⟨2, ![E, 1]⟩ ⟨2, ![E, C]⟩ [1] [0] [0] 1)

/-- On the row axis the window starts at the update row's scatter index, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the map does not name that axis. -/
theorem start_one (j : (⟨2, ![E, C]⟩ : Shape).Idx) (idx : IVec ⟨2, ![E, 1]⟩ w) :
    (rowDims N E C wf).start j idx 1 = 0 := by
  unfold ScatterDims.start
  have h : ¬ (1 : Fin 2) ∈ ([0] : List (Fin 2)) := by decide
  rw [dif_neg (show ¬ (1 : Fin 2) ∈ (rowDims N E C wf).scatterDimsToOperandDims from h)]

/-- The window coordinate on the row axis is `0`: that axis is inserted. -/
theorem window_zero (j : (⟨2, ![E, C]⟩ : Shape).Idx) :
    (rowDims N E C wf).window j 0 = 0 := by
  unfold ScatterDims.window
  have h : ¬ (0 : Fin 2) ∈ (List.finRange 2).filter (fun a => a ∉ ([0] : List (Fin 2))) := by decide
  rw [dif_neg (show ¬ (0 : Fin 2) ∈ (rowDims N E C wf).sKept from h)]

/-- The window coordinate on the column axis is the update's column. -/
theorem window_one (j : (⟨2, ![E, C]⟩ : Shape).Idx) :
    (rowDims N E C wf).window j 1 = (j 1).val := by
  unfold ScatterDims.window
  have h : (1 : Fin 2) ∈ (List.finRange 2).filter (fun a => a ∉ ([0] : List (Fin 2))) := by decide
  rw [dif_pos (show (1 : Fin 2) ∈ (rowDims N E C wf).sKept from h)]
  rfl

/-- An update index lands at operand element `(n, q)` exactly when its row's scatter index, read signed, is `n`
    and its column is `q`. -/
theorem resultIdx?_eq_some_iff (j : (⟨2, ![E, C]⟩ : Shape).Idx) (idx : IVec ⟨2, ![E, 1]⟩ w) (n : Fin N) (q : Fin C) :
    (rowDims N E C wf).resultIdx? j idx = some (ix2 n q) ↔
      (idx (ix2 (j 0) (0 : Fin 1))).toInt = (n.val : Int) ∧ j 1 = q := by
  have hs0 := start_zero wf j idx
  have hs1 := start_one wf j idx
  have hw0 := window_zero wf j
  have hw1 := window_one wf j
  have hn : n.val < N := n.isLt
  have hq : q.val < C := q.isLt
  have hj1 : (j 1).val < C := (j 1).isLt
  unfold ScatterDims.resultIdx?
  split_ifs with h
  · rw [Option.some.injEq]
    constructor
    · intro hf
      have h0 := congrArg (fun f => (f 0).val) hf
      have h1 := congrArg (fun f => (f 1).val) hf
      have b0 := (h 0).1
      simp only [hs0, hw0] at h0 b0
      simp only [hs1, hw1] at h1
      refine ⟨?_, Fin.ext ?_⟩
      · change ((idx (ix2 (j 0) (0 : Fin 1))).toInt + ((0 : Nat) : Int)).toNat = n.val at h0
        omega
      · change ((0 : Int) + ((j 1).val : Int)).toNat = q.val at h1
        omega
    · rintro ⟨ht, hjq⟩
      funext a
      refine Fin.ext ?_
      match a with
      | ⟨0, _⟩ =>
        show ((rowDims N E C wf).start j idx 0 + ((rowDims N E C wf).window j 0 : Int)).toNat = n.val
        rw [hs0, hw0, ht]; omega
      | ⟨1, _⟩ =>
        show ((rowDims N E C wf).start j idx 1 + ((rowDims N E C wf).window j 1 : Int)).toNat = q.val
        rw [hs1, hw1, ← hjq]; omega
  · constructor
    · intro hf; exact absurd hf (by simp)
    · rintro ⟨ht, hjq⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, hw0, ht]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, hw1]; omega

end

/-- THE ROW SCATTER READ AT `(n, q)`, at the ideal instance: the operand's element plus the sum, over ALL `E` update
    rows, of the update's element in column `q` when the row's scatter index (read signed) is `n`, and `0` when it is
    not. The landing condition does not depend on the column nor on the number of columns. -/
theorem scatterAdd_rows_apply {N E C w : Nat}
    (wf : ScatterDims.WF (⟨2, ![N, C]⟩ : Shape) ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32)
        (⟨[1], [0], [0], 1, wf⟩ : ScatterDims ⟨2, ![N, C]⟩ ⟨2, ![E, 1]⟩ ⟨2, ![E, C]⟩) x idx upd (ix2 n q)
      = x (ix2 n q) + ∑ e : Fin E,
          if (idx (ix2 e (0 : Fin 1))).toInt = (n.val : Int) then upd (ix2 e q) else 0 := by
  show Ideal.hostScatterAdd (rowDims N E C wf) x idx upd (ix2 n q) = _
  unfold Ideal.hostScatterAdd
  congr 1
  rw [Finset.sum_filter, sum_idx2]
  refine Finset.sum_congr rfl fun e _ => ?_
  have hc : ∀ b : Fin C, (if (rowDims N E C wf).resultIdx? (ix2 e b) idx = some (ix2 n q) then upd (ix2 e b) else 0)
      = if ((idx (ix2 e (0 : Fin 1))).toInt = (n.val : Int) ∧ b = q) then upd (ix2 e b) else 0 := fun b =>
    if_congr (resultIdx?_eq_some_iff wf (ix2 e b) idx n q) rfl rfl
  rw [Finset.sum_congr rfl fun b _ => hc b]
  by_cases ht : (idx (ix2 e (0 : Fin 1))).toInt = (n.val : Int)
  · simp only [ht, true_and, if_true]
    rw [Finset.sum_ite_eq' Finset.univ q (fun b => upd (ix2 e b)), if_pos (Finset.mem_univ q)]
  · simp only [ht, false_and, if_false, Finset.sum_const_zero]

/-- The same for ANY dimension numbers between these shapes whose four lists are a row scatter's (for a record stated
    field by field, each hypothesis is `rfl`). -/
theorem scatterAdd_rows_apply' {N E C w : Nat}
    (d : ScatterDims (⟨2, ![N, C]⟩ : Shape) ⟨2, ![E, 1]⟩ ⟨2, ![E, C]⟩)
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := .f32) d x idx upd (ix2 n q)
      = x (ix2 n q) + ∑ e : Fin E,
          if (idx (ix2 e (0 : Fin 1))).toInt = (n.val : Int) then upd (ix2 e q) else 0 := by
  obtain ⟨uw, iw, sd, iv, wf⟩ := d
  simp only at h1 h2 h3 h4
  subst h1 h2 h3 h4
  exact scatterAdd_rows_apply wf x idx upd n q

end Idealize.ShloMosaic.ScatterRows

end
-- ==== Proof.LibScatterVec.lean ====
/-
  THE ACCUMULATING SCATTER INTO A VECTOR READ AT AN INDEX, at the ideal instance (floats are extended reals).

  A scatter into a vector adds element `e` of an `[E]` array of updates into element `idx[e, 0]` of an `[N]` operand:
  `"stablehlo.scatter"` with an `add` body and dimension numbers update_window_dims = [], inserted_window_dims = [0],
  scatter_dims_to_operand_dims = [0], index_vector_dim = 1, over scatter indices of shape `[E, 1]` (what a segment sum
  of a vector lowers to; with updates all one it counts, per segment, the indices that name it). The scatter index is
  read SIGNED and is NOT clamped: an update whose index is outside `[0, N)` is dropped. At the ideal instance element
  `n` of the result is

      x[n] + ∑ e : Fin E, if idx[e, 0] = n then upd[e] else 0

  (`scatterAdd_vec_apply`) — the landing condition is the one of a row scatter through the same indices.
-/
import Idealize.ShloMosaic.PureOps.Ideal
import Idealize.ShloMosaic.PureOps.Contract
import Idealize.ShloMosaic.Lib.ValueIdx

noncomputable section

open scoped BigOperators

namespace Idealize.ShloMosaic.ScatterVec

open Idealize.ShloMosaic Idealize.ShloMosaic.ValueIdx

/-- The dimension numbers of a scatter of `[E]` updates into an `[N]` operand through `[E, 1]` scatter indices. -/
abbrev vecDims (N E : Nat)
    (wf : ScatterDims.WF (⟨1, ![N]⟩ : Shape) ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat}
  (wf : ScatterDims.WF (⟨1, ![N]⟩ : Shape) ⟨2, ![E, 1]⟩ ⟨1, ![E]⟩ [] [0] [0] 1)

/-- The window starts at the update's scatter index, read signed. -/
theorem start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The window coordinate is `0`: the operand's one axis is inserted. -/
theorem window_zero (j : (⟨1, ![E]⟩ : Shape).Idx) :
    (vecDims N E wf).window j 0 = 0 := by
  unfold ScatterDims.window
  have h : ¬ (0 : Fin 1) ∈ (List.finRange 1).filter (fun a => a ∉ ([0] : List (Fin 1))) := by decide
  rw [dif_neg (show ¬ (0 : Fin 1) ∈ (vecDims N E wf).sKept from h)]

/-- An update lands at operand element `n` exactly when its scatter index, read signed, is `n`. -/
theorem resultIdx?_eq_some_iff (j : (⟨1, ![E]⟩ : Shape).Idx) (idx : IVec ⟨2, ![E, 1]⟩ w) (n : Fin N) :
    (vecDims N E wf).resultIdx? j idx = some (ix1 n) ↔ (idx (ix2 (j 0) (0 : Fin 1))).toInt = (n.val : Int) := by
  have hs0 := start_zero wf j idx
  have hw0 := window_zero wf j
  have hn : n.val < N := n.isLt
  unfold ScatterDims.resultIdx?
  split_ifs with h
  · rw [Option.some.injEq]
    constructor
    · intro hf
      have h0 := congrArg (fun f => (f 0).val) hf
      have b0 := (h 0).1
      simp only [hs0, hw0] at h0 b0
      change ((idx (ix2 (j 0) (0 : Fin 1))).toInt + ((0 : Nat) : Int)).toNat = n.val at h0
      omega
    · intro ht
      funext a
      refine Fin.ext ?_
      match a with
      | ⟨0, _⟩ =>
        show ((vecDims N E wf).start j idx 0 + ((vecDims N E wf).window j 0 : Int)).toNat = n.val
        rw [hs0, hw0, ht]; omega
  · constructor
    · intro hf; exact absurd hf (by simp)
    · intro ht
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, hw0, ht]; omega

end

/-- THE SCATTER INTO A VECTOR READ AT `n`, at the ideal instance: the operand's element plus the sum, over ALL `E`
    updates, of the update when its scatter index (read signed) is `n`, and `0` when it is not. -/
theorem scatterAdd_vec_apply {N E w : Nat}
    (wf : ScatterDims.WF (⟨1, ![N]⟩ : Shape) ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32)
        (⟨[], [0], [0], 1, wf⟩ : ScatterDims ⟨1, ![N]⟩ ⟨2, ![E, 1]⟩ ⟨1, ![E]⟩) x idx upd (ix1 n)
      = x (ix1 n) + ∑ e : Fin E,
          if (idx (ix2 e (0 : Fin 1))).toInt = (n.val : Int) then upd (ix1 e) else 0 := by
  show Ideal.hostScatterAdd (vecDims N E wf) x idx upd (ix1 n) = _
  unfold Ideal.hostScatterAdd
  congr 1
  rw [Finset.sum_filter]
  have hre : ∀ f : (⟨1, ![E]⟩ : Shape).Idx → EReal, ∑ j, f j = ∑ e : Fin E, f (ix1 e) := fun f =>
    (Equiv.sum_comp (⟨fun e : Fin E => (ix1 e : (⟨1, ![E]⟩ : Shape).Idx), fun j => j 0,
      fun e => rfl, fun j => (eq_ix1 j).symm⟩ : Fin E ≃ (⟨1, ![E]⟩ : Shape).Idx) f).symm
  rw [hre]
  refine Finset.sum_congr rfl fun e _ => ?_
  exact if_congr (resultIdx?_eq_some_iff wf (ix1 e) idx n) rfl rfl

/-- The same for ANY dimension numbers between these shapes whose four lists are this scatter's. -/
theorem scatterAdd_vec_apply' {N E w : Nat}
    (d : ScatterDims (⟨1, ![N]⟩ : Shape) ⟨2, ![E, 1]⟩ ⟨1, ![E]⟩)
    (h1 : d.updateWindowDims = []) (h2 : d.insertedWindowDims = [0])
    (h3 : d.scatterDimsToOperandDims = [0]) (h4 : d.indexVectorDim = 1)
    (x : (⟨1, ![N]⟩ : Shape).Idx → EReal) (idx : IVec ⟨2, ![E, 1]⟩ w)
    (upd : (⟨1, ![E]⟩ : Shape).Idx → EReal) (n : Fin N) :
    Host.scatterAdd (F := Ideal) (φ := .f32) d x idx upd (ix1 n)
      = x (ix1 n) + ∑ e : Fin E,
          if (idx (ix2 e (0 : Fin 1))).toInt = (n.val : Int) then upd (ix1 e) else 0 := by
  obtain ⟨uw, iw, sd, iv, wf⟩ := d
  simp only at h1 h2 h3 h4
  subst h1 h2 h3 h4
  exact scatterAdd_vec_apply wf x idx upd n

end Idealize.ShloMosaic.ScatterVec

end
-- ==== Proof.LibGatherRows.lean ====
/-
  THE ROW GATHER READ AT AN INDEX.

  A row gather takes, for each of `E` start indices, one whole row of an `[N, C]` operand: `"stablehlo.gather"` with
  offset_dims = [1], collapsed_slice_dims = [0], start_index_map = [0], index_vector_dim = 1 and slice sizes [1, C], over
  start indices of shape `[E, 1]` (what indexing an array by an integer vector along its leading axis lowers to).
  Element `(e, q)` of the result is the operand at row `idx[e, 0]` — read SIGNED and CLAMPED into `[0, N − 1]`, so
  that the one-row slice fits — and column `q` (`gather_rows_apply`). The clamp is the identity on a start index already
  inside the range (`clampRow_of_toInt_eq`). The extents and the index width are arbitrary.

  Road: on these dimension numbers the operand coordinate on axis 0 is the clamped start alone (no batching axis, the
  axis is collapsed), and on axis 1 it is the result's column alone (the start index map does not name that axis).
-/
import Idealize.ShloMosaic.PureOps.ShapeOps
import Idealize.ShloMosaic.Lib.ValueIdx

namespace Idealize.ShloMosaic.GatherRows

open Idealize.ShloMosaic Idealize.ShloMosaic.ValueIdx

variable {α : Type}

/-- The row a start-index word addresses: the word read signed, negative words at row 0, words past the end at the
    last row. -/
def clampRow (N : Nat) (hN : 0 < N) {w : Nat} (b : BitVec w) : Fin N := ⟨min b.toInt.toNat (N - 1), by omega⟩

/-- A start index that is a row number is not moved by the clamp. -/
theorem clampRow_of_toInt_eq {N : Nat} (hN : 0 < N) {w : Nat} (b : BitVec w) (n : Fin N) (h : b.toInt = (n.val : Int)) :
    clampRow N hN b = n := by
  apply Fin.ext
  show min b.toInt.toNat (N - 1) = n.val
  have := n.isLt
  rw [h]; omega

/-- The dimension numbers of a row gather from an `[N, C]` operand through `[E, 1]` start indices. -/
abbrev rowDims (N E C : Nat)
    (wf : GatherDims.WF (⟨2, ![N, C]⟩ : Shape) ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, q)`: the operand at the clamped row of start index `e`, column `q`. -/
theorem gather_rows_apply {N E C w : Nat} (hN : 0 < N)
    (wf : GatherDims.WF (⟨2, ![N, C]⟩ : Shape) ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (clampRow N hN (idx (ix2 e (0 : Fin 1)))) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    have hs : (rowDims N E C wf).start (ix2 e q) idx 1 = 0 := by
      unfold GatherDims.start
      have h : ¬ (1 : Fin 2) ∈ ([0] : List (Fin 2)) := by decide
      rw [dif_neg (show ¬ (1 : Fin 2) ∈ (rowDims N E C wf).startIndexMap from h)]
    have ho : (rowDims N E C wf).offCoord (ix2 e q) 1 = q.val := by
      unfold GatherDims.offCoord
      have h : (1 : Fin 2) ∈ (rowDims N E C wf).sKept :=
        (GatherDims.mem_sKept _ _).mpr ⟨(by decide : ¬ (1 : Fin 2) ∈ ([0] : List (Fin 2))), List.not_mem_nil⟩
      rw [dif_pos h]
      rfl
    rw [hs, ho]; omega

/-- The same for ANY dimension numbers between these shapes whose fields are a row gather's (for a record stated field
    by field, each hypothesis is `rfl`). -/
theorem gather_rows_apply' {N E C w : Nat} (hN : 0 < N)
    (d : GatherDims (⟨2, ![N, C]⟩ : Shape) ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (clampRow N hN (idx (ix2 e (0 : Fin 1)))) q) := by
  obtain ⟨od, cd, ob, sb, sm, iv, ss, wf⟩ := d
  simp only at h1 h2 h3 h4 h5 h6 h7
  subst h1 h2 h3 h4 h5 h6 h7
  exact gather_rows_apply hN wf x idx e q

end Idealize.ShloMosaic.GatherRows
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.RowSpec.lean ====
/-
  ONE NODE'S UPDATE, AS FUNCTIONS OF ITS ROW — and the three laws that make the two spellings one function.

  A node `n` has a feature row `x` (128 wide) and a position `p` (3 wide). Its OFFSET is
  `d = tanh (relu (x · Wh1 + bh1) · Wh2 + bh2)`. Its incoming edges `e` (those whose target word is `n`) carry the message
  `(pos[src e] − p + d, x[src e])`, 131 wide; the messages are summed and divided by `max (count, 1)`; a two-layer
  rectified network of the mean is added to `x`.

  Two spellings of the mean. One sums whole messages and divides each of the 131 columns by `max (c, 1)`
  (`aggDiv`). The other sums only what depends on the edge — the source's position `sp` and features `sx` — keeps the
  count `c`, multiplies by the reciprocal `r = 1 / max (c, 1)`, and restores the node's own part afterwards:
  `sp · r − (c · r) · p + (c · r) · d` on the three position columns, `sx · r` on the feature columns; and it contracts the
  three position columns and the 128 feature columns with the matching rows of the first weight separately.

  * `sum_split`: a contraction over 131 = 3 + 128 columns is the sum of the contractions over the two parts.
  * `div_eq_mul_inv`: a quotient by `max (c, 1)` is the product with its reciprocal — on every extended real, because
    `max (c, 1) ≥ 1` is never zero.
  * `aggPos_eq`: for REAL source positions, own position and offset, with `K` edges landing,
    `(Σ (a_e − p + d)) / M = (Σ a_e) · (1/M) − (K · (1/M)) · p + (K · (1/M)) · d` where `M = max (K, 1)`: the constant terms
    leave the sum multiplied by the number of terms, and the quotient distributes. This is the one step that needs
    finiteness: distributing over a sum fails at the infinities.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.NodeUpdate

open Idealize.ShloMosaic

/-- The f32 words of zero and one, as the extended reals they denote. -/
abbrev zeroE : EReal := Ideal.ofBits .f32 0x00000000#32
abbrev oneE : EReal := Ideal.ofBits .f32 0x3F800000#32

theorem zeroE_eq : zeroE = 0 := Ideal.ofBits_zero_f32
theorem oneE_eq : oneE = 1 := Ideal.ofBits_one_f32

/-- A dense layer for one row: the row contracted with the weight's columns, plus the bias. -/
def dense {K B : Nat} (v : Fin K → EReal) (W : Fin K → Fin B → EReal) (b : Fin B → EReal) (c : Fin B) : EReal :=
  (∑ k, v k * W k c) + b c

/-- The rectifier. -/
def relu (x : EReal) : EReal := max x zeroE

/-- The node's offset: a rectified dense layer, a dense layer to three columns, the hyperbolic tangent. -/
def offset (x : Fin 128 → EReal) (Wh1 : Fin 128 → Fin 128 → EReal) (bh1 : Fin 128 → EReal)
    (Wh2 : Fin 128 → Fin 3 → EReal) (bh2 : Fin 3 → EReal) (l : Fin 3) : EReal :=
  Ideal.tanh (dense (fun k => relu (dense x Wh1 bh1 k)) Wh2 bh2 l)

/-- The reciprocal of the in-degree, the degree of an isolated node read as one. -/
def invDeg (c : EReal) : EReal := Ideal.div oneE (max c oneE)

/-- The mean's position columns, from the summed source positions, the count, the node's position and offset. -/
def aggPosMul (sp p d : Fin 3 → EReal) (c : EReal) (l : Fin 3) : EReal :=
  (sp l * invDeg c - (c * invDeg c) * p l) + (c * invDeg c) * d l

/-- The mean's feature columns, from the summed source features and the count. -/
def aggXMul (sx : Fin 128 → EReal) (c : EReal) (k : Fin 128) : EReal := sx k * invDeg c

/-- The first layer of the update with the two parts of the mean contracted separately. -/
def hiddenSplit (ap : Fin 3 → EReal) (ax : Fin 128 → EReal) (Wp : Fin 3 → Fin 128 → EReal)
    (Wx : Fin 128 → Fin 128 → EReal) (b : Fin 128 → EReal) (k : Fin 128) : EReal :=
  relu (((∑ l, ap l * Wp l k) + (∑ l, ax l * Wx l k)) + b k)

/-- The mean as a quotient, column by column. -/
def aggDiv (s : Fin 131 → EReal) (c : EReal) (l : Fin 131) : EReal := Ideal.div (s l) (max c oneE)

/-- The first layer of the update on the whole 131-wide mean. -/
def hiddenWhole (a : Fin 131 → EReal) (W : Fin 131 → Fin 128 → EReal) (b : Fin 128 → EReal) (k : Fin 128) : EReal :=
  relu (dense a W b k)

/-- The node's new row: its features plus the rectified second layer of the hidden row. -/
def outRow (x : Fin 128 → EReal) (h : Fin 128 → EReal) (W : Fin 128 → Fin 128 → EReal) (b : Fin 128 → EReal)
    (q : Fin 128) : EReal :=
  x q + relu (dense h W b q)

/-- The node's new row from its own row and the edge sums, in the product spelling of the mean. -/
def nodeRow (x : Fin 128 → EReal) (p : Fin 3 → EReal) (sx : Fin 128 → EReal) (sp : Fin 3 → EReal) (c : EReal)
    (Wh1 : Fin 128 → Fin 128 → EReal) (bh1 : Fin 128 → EReal) (Wh2 : Fin 128 → Fin 3 → EReal) (bh2 : Fin 3 → EReal)
    (Wp : Fin 3 → Fin 128 → EReal) (Wx : Fin 128 → Fin 128 → EReal) (bg1 : Fin 128 → EReal)
    (Wg2 : Fin 128 → Fin 128 → EReal) (bg2 : Fin 128 → EReal) (q : Fin 128) : EReal :=
  outRow x (hiddenSplit (aggPosMul sp p (offset x Wh1 bh1 Wh2 bh2) c) (aggXMul sx c) Wp Wx bg1) Wg2 bg2 q

/-- Row `a` of a matrix, a matrix by its two coordinates, a vector by its coordinate. -/
abbrev row {A B : Nat} (M : (⟨2, ![A, B]⟩ : Shape).Idx → EReal) (a : Fin A) : Fin B → EReal := fun b => M (ValueIdx.ix2 a b)
abbrev mat {A B : Nat} (M : (⟨2, ![A, B]⟩ : Shape).Idx → EReal) : Fin A → Fin B → EReal := fun a b => M (ValueIdx.ix2 a b)
abbrev vec {A : Nat} (v : (⟨1, ![A]⟩ : Shape).Idx → EReal) : Fin A → EReal := fun a => v (ValueIdx.ix1 a)

/-- The hyperbolic tangent of an extended real is a real number: the infinities go to `±1`. -/
theorem tanh_real (x : EReal) : ∃ r : ℝ, Ideal.tanh x = (r : EReal) := by
  induction x with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-! ## The contraction over 131 columns splits at column 3 -/

/-- Column `l` of the first three, and column `3 + l` of the remaining 128, of a 131-wide row. -/
abbrev colPos (l : Fin 3) : Fin 131 := ⟨l.val, by omega⟩
abbrev colX (l : Fin 128) : Fin 131 := ⟨l.val + 3, by omega⟩

theorem sum_split (f : Fin 131 → EReal) : ∑ l, f l = (∑ l : Fin 3, f (colPos l)) + ∑ l : Fin 128, f (colX l) := by
  have h := Fin.sum_univ_add (a := 3) (b := 128) (f : Fin (3 + 128) → EReal)
  rw [show (∑ l : Fin 131, f l) = ∑ l : Fin (3 + 128), (f : Fin (3 + 128) → EReal) l from rfl, h]
  congr 1

theorem hidden_eq (a : Fin 131 → EReal) (W : Fin 131 → Fin 128 → EReal) (b : Fin 128 → EReal)
    (ap : Fin 3 → EReal) (ax : Fin 128 → EReal) (hp : ∀ l, a (colPos l) = ap l) (hx : ∀ l, a (colX l) = ax l)
    (k : Fin 128) :
    hiddenWhole a W b k = hiddenSplit ap ax (fun l k => W (colPos l) k) (fun l k => W (colX l) k) b k := by
  unfold hiddenWhole hiddenSplit dense
  rw [sum_split]
  simp only [hp, hx]

/-! ## A quotient by the degree is a product with its reciprocal -/

theorem max_one_ne_zero (c : EReal) : max c oneE ≠ 0 := by
  rw [oneE_eq]
  intro h
  have h1 : (1 : EReal) ≤ max c 1 := le_max_right c 1
  rw [h] at h1
  exact absurd h1 (by simp)

theorem div_eq_mul_inv (s c : EReal) : Ideal.div s (max c oneE) = s * invDeg c := by
  unfold invDeg
  rw [oneE_eq]
  exact (Ideal.mul_one_div (by rw [← oneE_eq]; exact max_one_ne_zero c)).symm

/-! ## Real sums inside the extended reals -/

theorem coe_finset_sum {ι : Type} (s : Finset ι) (f : ι → ℝ) :
    ((∑ i ∈ s, f i : ℝ) : EReal) = ∑ i ∈ s, (f i : EReal) := by
  classical
  induction s using Finset.induction_on with
  | empty => simp
  | insert i s ha ih => rw [Finset.sum_insert ha, Finset.sum_insert ha, EReal.coe_add, ih]

theorem coe_sum_ite {E : Nat} (T : Fin E → Prop) [DecidablePred T] (f : Fin E → ℝ) :
    (∑ e, if T e then (f e : EReal) else 0) = ((∑ e, if T e then f e else 0 : ℝ) : EReal) := by
  rw [coe_finset_sum]
  refine Finset.sum_congr rfl fun e _ => ?_
  split_ifs <;> simp

/-- The landing edges' messages, summed: the constant terms leave the sum multiplied by the number of terms. -/
theorem sum_msg {E : Nat} (T : Fin E → Prop) [DecidablePred T] (a : Fin E → ℝ) (p d : ℝ) :
    (∑ e, if T e then (a e - p + d) else 0)
      = (∑ e, if T e then a e else 0) - (∑ e, if T e then (1 : ℝ) else 0) * p + (∑ e, if T e then (1 : ℝ) else 0) * d := by
  have h : ∀ e, (if T e then (a e - p + d) else 0)
      = (if T e then a e else 0) - (if T e then (1 : ℝ) else 0) * p + (if T e then (1 : ℝ) else 0) * d := by
    intro e; split_ifs <;> ring
  simp_rw [h]
  rw [Finset.sum_add_distrib, Finset.sum_sub_distrib, ← Finset.sum_mul, ← Finset.sum_mul]

/-- THE POSITION COLUMNS OF THE MEAN: the quotient of the summed messages is the product form, for real source
    positions `a`, own position `p` and offset `d`. -/
theorem aggPos_eq {E : Nat} (T : Fin E → Prop) [DecidablePred T] (a : Fin E → ℝ) (p d : ℝ) :
    Ideal.div (zeroE + ∑ e, if T e then (((a e : EReal) - (p : EReal)) + (d : EReal)) else 0)
        (max (zeroE + ∑ e, if T e then oneE else 0) oneE)
      = ((zeroE + ∑ e, if T e then (a e : EReal) else 0) * invDeg (zeroE + ∑ e, if T e then oneE else 0)
          - ((zeroE + ∑ e, if T e then oneE else 0) * invDeg (zeroE + ∑ e, if T e then oneE else 0)) * (p : EReal))
        + ((zeroE + ∑ e, if T e then oneE else 0) * invDeg (zeroE + ∑ e, if T e then oneE else 0)) * (d : EReal) := by
  unfold invDeg
  simp only [zeroE_eq, oneE_eq, zero_add]
  have h1 : (∑ e, if T e then (1 : EReal) else 0) = ((∑ e, if T e then (1 : ℝ) else 0 : ℝ) : EReal) := by
    rw [← coe_sum_ite]
    refine Finset.sum_congr rfl fun e _ => ?_
    split_ifs <;> simp
  have h2 : (∑ e, if T e then (((a e : EReal) - (p : EReal)) + (d : EReal)) else 0)
      = ((∑ e, if T e then (a e - p + d) else 0 : ℝ) : EReal) := by
    rw [← coe_sum_ite]
    refine Finset.sum_congr rfl fun e _ => ?_
    split_ifs
    · rw [EReal.coe_add, EReal.coe_sub]
    · rfl
  rw [h1, h2, coe_sum_ite, sum_msg]
  set K : ℝ := ∑ e, if T e then (1 : ℝ) else 0 with hK
  set A : ℝ := ∑ e, if T e then a e else 0 with hA
  have hM : max K 1 ≠ 0 := by
    have : (1 : ℝ) ≤ max K 1 := le_max_right K 1
    intro h; rw [h] at this; linarith
  have hmax : max (K : EReal) ((1 : ℝ) : EReal) = ((max K 1 : ℝ) : EReal) :=
    (EReal.coe_strictMono.monotone.map_max (a := K) (b := 1)).symm
  rw [show ((1 : EReal)) = ((1 : ℝ) : EReal) from rfl, hmax, Ideal.div_coe hM, Ideal.div_coe hM]
  rw [← EReal.coe_mul, ← EReal.coe_mul, ← EReal.coe_mul, ← EReal.coe_mul, ← EReal.coe_mul, ← EReal.coe_sub,
    ← EReal.coe_mul, ← EReal.coe_add]
  congr 1
  ring

end Cert.NodeUpdate

end
-- ==== Proof.EdgeSpec.lean ====
/-
  THE EDGES: which node an edge lands at, and which row a gather through its words reads.

  The edge array holds two rows of 32-bit words: row 0 the sources, row 1 the targets. A SUM OVER THE EDGES LANDING AT
  NODE `n` (`landSum`) takes the edges whose TARGET word, read signed, is exactly `n` — a target outside `[0, 50000)` lands
  nowhere. A GATHER reads, for a word `b`, the row of the word with the negative-index convention applied (`b + 50000`
  when `b < 0`, `wrapWord`) and then clamped into the array (`gRow`). For an edge that lands at `n` the two agree: its
  target word is a row number, so it is not wrapped and not moved by the clamp, and a gather through it reads row `n`
  (`gRow_of_lands`). That is what lets the node's own position and offset leave the sum over its landing edges.
-/
import proofs.«123382_j87875030876558_2_alg».proof.Proof.LibGatherRows
import proofs.«123382_j87875030876558_2_alg».proof.Proof.RowSpec
import Idealize.ShloMosaic.Lib.ValueIdx

noncomputable section

open scoped BigOperators

namespace Cert.NodeUpdate

open Idealize.ShloMosaic Idealize.ShloMosaic.ValueIdx

/-- The edge array: two rows of 800000 words. -/
abbrev EdgeArr : Type := (⟨2, ![2, 800000]⟩ : Shape).Idx → BitVec 32

def srcWord (EI : EdgeArr) (e : Fin 800000) : BitVec 32 := EI (ix2 (0 : Fin 2) e)
def dstWord (EI : EdgeArr) (e : Fin 800000) : BitVec 32 := EI (ix2 (1 : Fin 2) e)

/-- The negative-index convention on a word: a negative word counts from the end of the 50000 rows. -/
def wrapWord (b : BitVec 32) : BitVec 32 := Scalar.select (IntOp.cmpi .slt b 0#32) (IntOp.addi b 50000#32) b

/-- The row a gather through the word reads. -/
def gRow (b : BitVec 32) : Fin 50000 := GatherRows.clampRow 50000 (by decide) (wrapWord b)

/-- The sum, from zero, over the edges landing at node `n`. -/
def landSum (EI : EdgeArr) (n : Fin 50000) (f : Fin 800000 → EReal) : EReal :=
  zeroE + ∑ e : Fin 800000, if (dstWord EI e).toInt = (n.val : Int) then f e else 0

theorem wrapWord_of_row (b : BitVec 32) (n : Fin 50000) (h : b.toInt = (n.val : Int)) : wrapWord b = b := by
  have hs : b.slt 0#32 = false := by
    unfold BitVec.slt
    rw [h]
    simp
  have hc : IntOp.cmpi .slt b 0#32 = 0#1 := by
    unfold IntOp.cmpi
    simp only [hs]
    rfl
  delta wrapWord
  rw [hc]
  exact select_zero _ _

/-- A gather through the target word of an edge landing at `n` reads row `n`. -/
theorem gRow_of_lands (b : BitVec 32) (n : Fin 50000) (h : b.toInt = (n.val : Int)) : gRow b = n := by
  unfold gRow
  rw [wrapWord_of_row b n h]
  exact GatherRows.clampRow_of_toInt_eq _ b n h

/-- Under the landing condition the summand may use it. -/
theorem landSum_congr (EI : EdgeArr) (n : Fin 50000) (f g : Fin 800000 → EReal)
    (h : ∀ e, (dstWord EI e).toInt = (n.val : Int) → f e = g e) : landSum EI n f = landSum EI n g := by
  unfold landSum
  refine congrArg (fun s => zeroE + s) ?_
  refine Finset.sum_congr rfl fun e _ => ?_
  split_ifs with he
  · exact h e he
  · rfl

end Cert.NodeUpdate

end
-- ==== Proof.KernelRow.lean ====
/-
  THE KERNEL BODY'S ARITHMETIC, READ AT AN INDEX.

  The body works on a block of 2000 nodes at once; every operation in it is row-wise: element `(p, q)` of the result
  depends on row `p` of each per-node operand and on the whole weights only. Each payload is read here at `(p, ·)`:

  * the offset `tanh (relu (x · Wh1 + bh1) · Wh2 + bh2)` (`offset_apply`);
  * the reciprocal of the clipped count and the count times it (`invDeg_apply`, `mask_apply`), a column repeated along
    the three position columns (`maskCols_apply`);
  * the summed source positions times the reciprocal, minus the mask times the node's position (`posPart_apply`);
  * the stored value: the node's features plus the two rectified layers of the mean (`store_apply`),

  and their composition is the one-row function `NodeUpdate.nodeRow` of row `p` of the operands (`body_apply`).
  A matrix product into the zero accumulator is the sum over the contracted coordinate; a change of float format is the
  identity; a bias `[128]` seen as `[1, 128]` and repeated along the rows reads the bias at the column.
-/
import proofs.«123382_j87875030876558_2_alg».proof.Proof.Gen.KernelIdeal.Skeleton
import proofs.«123382_j87875030876558_2_alg».proof.Proof.LibRowOps
import proofs.«123382_j87875030876558_2_alg».proof.Proof.LibColumns
import proofs.«123382_j87875030876558_2_alg».proof.Proof.RowSpec
import Idealize.ShloMosaic.Lib.ValueIdx
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.NodeUpdate

theorem tanh_apply {s : Shape} (a : FVec Ideal s .f32) (i : s.Idx) : tanh a i = Ideal.tanh (a i) := rfl

theorem scalar_ofBits (b : BitVec 32) : Scalar.ofBits (F := Ideal) .f32 b = Ideal.ofBits .f32 b := rfl

/-- The three matrix products of the body into the zero accumulator, each as a sum over its contracted coordinate. -/
theorem mm_128_128 (l : FVec Ideal S2000x128 .bf16) (r : FVec Ideal S128x128 .bf16) (p : Fin 2000) (c : Fin 128) :
    FloatOps.matmul dot_S2000x128_S128x128_S2000x128_1_0_0_1_n_n none l r (constant S2000x128 .f32 0x00000000#32) (ix2 p c)
      = ∑ k : Fin 128, l (ix2 p k) * r (ix2 k c) :=
  RowOps.matmul_zero_plain_apply dot_S2000x128_S128x128_S2000x128_1_0_0_1_n_n ⟨_, rfl⟩ none l r p c

theorem mm_128_3 (l : FVec Ideal S2000x128 .bf16) (r : FVec Ideal S128x3 .bf16) (p : Fin 2000) (c : Fin 3) :
    FloatOps.matmul dot_S2000x128_S128x3_S2000x3_1_0_0_1_n_n none l r (constant S2000x3 .f32 0x00000000#32) (ix2 p c)
      = ∑ k : Fin 128, l (ix2 p k) * r (ix2 k c) :=
  RowOps.matmul_zero_plain_apply dot_S2000x128_S128x3_S2000x3_1_0_0_1_n_n ⟨_, rfl⟩ none l r p c

theorem mm_3_128 (l : FVec Ideal S2000x3 .bf16) (r : FVec Ideal S3x128 .bf16) (p : Fin 2000) (c : Fin 128) :
    FloatOps.matmul dot_S2000x3_S3x128_S2000x128_1_0_0_1_n_n none l r (constant S2000x128 .f32 0x00000000#32) (ix2 p c)
      = ∑ k : Fin 3, l (ix2 p k) * r (ix2 k c) :=
  RowOps.matmul_zero_plain_apply dot_S2000x3_S3x128_S2000x128_1_0_0_1_n_n ⟨_, rfl⟩ none l r p c

/-- A bias seen as one row and repeated along the rows reads the bias at the column. -/
theorem bias128_apply (b : FVec Ideal S128 .f32) (p : Fin 2000) (c : Fin 128) :
    broadcastTo S2000x128 (shapeCast S1x128 b shapeCasts_S128_S1x128) broadcasts_S1x128_S2000x128 (ix2 p c) = b (ix1 c) := by
  rw [broadcastTo_1b_ab_apply, shapeCast_a_1a_apply]

theorem bias3_apply (b : FVec Ideal S3 .f32) (p : Fin 2000) (c : Fin 3) :
    broadcastTo S2000x3 (shapeCast S1x3 b shapeCasts_S3_S1x3) broadcasts_S1x3_S2000x3 (ix2 p c) = b (ix1 c) := by
  rw [broadcastTo_1b_ab_apply, shapeCast_a_1a_apply]

/-- The offset payload at `(p, l)`. -/
theorem offset_apply (x0 : FVec Ideal S2000x128 .f32) (x5 : FVec Ideal S128x128 .f32) (x6 : FVec Ideal S128 .f32)
    (x7 : FVec Ideal S128x3 .f32) (x8 : FVec Ideal S3 .f32) (p : Fin 2000) (l : Fin 3) :
    k0_pay4 (F := Ideal) x0 x5 x6 x7 x8 (ix2 p l) = offset (row x0 p) (mat x5) (vec x6) (mat x7) (vec x8) l := by
  unfold k0_pay4
  simp only [tanh_apply, addf_apply, mm_128_3, bias3_apply, truncf_apply, maximumf_apply, mm_128_128, bias128_apply,
    broadcast_apply, scalar_ofBits]
  rfl

/-- The reciprocal of the clipped count. -/
theorem invDeg_apply (x4 : FVec Ideal S2000x1 .f32) (i : S2000x1.Idx) : k0_pay5 (F := Ideal) x4 i = invDeg (x4 i) := by
  unfold k0_pay5 k0_pay3
  simp only [divf_apply, maximumf_apply, broadcast_apply, scalar_ofBits, shapeCast_self]
  rfl

/-- The count times its reciprocal: one for a node with incoming edges, zero for an isolated one. -/
theorem mask_apply (x4 : FVec Ideal S2000x1 .f32) (i : S2000x1.Idx) : k0_pay6 (F := Ideal) x4 i = x4 i * invDeg (x4 i) := by
  unfold k0_pay6 k0_pay3
  simp only [mulf_apply, invDeg_apply, shapeCast_self]

theorem maskCols_apply (x4 : FVec Ideal S2000x1 .f32) (p : Fin 2000) (l : Fin 3) :
    k0_pay8 (F := Ideal) x4 (ix2 p l) = x4 (ix2 p (0 : Fin 1)) * invDeg (x4 (ix2 p (0 : Fin 1))) := by
  unfold k0_pay8
  rw [broadcastTo_a1_ab_apply, mask_apply]

theorem posPart_apply (x1 x3 : FVec Ideal S2000x3 .f32) (x4 : FVec Ideal S2000x1 .f32) (p : Fin 2000) (l : Fin 3) :
    k0_pay7 (F := Ideal) x1 x3 x4 (ix2 p l)
      = x3 (ix2 p l) * invDeg (x4 (ix2 p (0 : Fin 1)))
        - (x4 (ix2 p (0 : Fin 1)) * invDeg (x4 (ix2 p (0 : Fin 1)))) * x1 (ix2 p l) := by
  unfold k0_pay7
  simp only [subf_apply, mulf_apply, broadcastTo_a1_ab_apply, invDeg_apply, mask_apply, shapeCast_self]

/-- The stored value at `(p, q)`, from the row-wise intermediate values. -/
theorem store_apply (v0 v3 : FVec Ideal S2000x128 .f32) (v26 : FVec Ideal S2000x3 .f32) (v30 : FVec Ideal S2000x1 .f32)
    (v36 v37 : FVec Ideal S2000x3 .f32) (v42 : FVec Ideal S3x128 .f32) (v44 : FVec Ideal S128x128 .f32)
    (v53 : FVec Ideal S128 .f32) (v59 : FVec Ideal S128x128 .f32) (v63 : FVec Ideal S128 .f32) (p : Fin 2000) (q : Fin 128) :
    k0_pay1 (F := Ideal) v0 v3 v26 v30 v36 v37 v42 v44 v53 v59 v63 (ix2 p q)
      = outRow (row v0 p)
          (hiddenSplit (fun l => v36 (ix2 p l) + v37 (ix2 p l) * v26 (ix2 p l))
            (fun k => v3 (ix2 p k) * v30 (ix2 p (0 : Fin 1))) (mat v42) (mat v44) (vec v53))
          (mat v59) (vec v63) q := by
  unfold k0_pay1
  simp only [addf_apply, maximumf_apply, mm_128_128, mm_3_128, bias128_apply, truncf_apply, mulf_apply,
    broadcast_apply, scalar_ofBits, broadcastTo_a1_ab_apply, shapeCast_self]
  rfl

/-- THE BODY AT `(p, q)`: the one-row function of row `p` of the block's operands. -/
theorem body_apply (x0 : FVec Ideal S2000x128 .f32) (x1 : FVec Ideal S2000x3 .f32) (x2 : FVec Ideal S2000x128 .f32)
    (x3 : FVec Ideal S2000x3 .f32) (x4 : FVec Ideal S2000x1 .f32) (x5 : FVec Ideal S128x128 .f32) (x6 : FVec Ideal S128 .f32)
    (x7 : FVec Ideal S128x3 .f32) (x8 : FVec Ideal S3 .f32) (x9 : FVec Ideal S3x128 .f32) (x10 : FVec Ideal S128x128 .f32)
    (x11 : FVec Ideal S128 .f32) (x12 : FVec Ideal S128x128 .f32) (x13 : FVec Ideal S128 .f32) (p : Fin 2000) (q : Fin 128) :
    k0_pay1 (F := Ideal) x0 (k0_pay2 x2) (k0_pay4 x0 x5 x6 x7 x8) (k0_pay5 x4) (k0_pay7 x1 x3 x4) (k0_pay8 x4) x9 x10 x11 x12 x13 (ix2 p q)
      = nodeRow (row x0 p) (row x1 p) (row x2 p) (row x3 p) (x4 (ix2 p (0 : Fin 1)))
          (mat x5) (vec x6) (mat x7) (vec x8) (mat x9) (mat x10) (vec x11) (mat x12) (vec x13) q := by
  rw [store_apply]
  unfold nodeRow
  congr 2
  · funext l
    rw [posPart_apply, maskCols_apply, offset_apply]
    rfl
  · funext k
    rw [invDeg_apply]
    unfold k0_pay2
    rw [shapeCast_self]
    rfl

end Cert.KernelIdeal.RowValue

namespace Cert.KernelIdeal.ArrValue

open Cert.KernelIdeal Idealize.ShloMosaic Idealize.ShloMosaic.ValueIdx Cert.NodeUpdate

/-- The whole-array function: each node's new row from its own rows of the per-node arrays and the weights. -/
def nodeArr (X : FVec Ideal S50000x128 .f32) (P : FVec Ideal S50000x3 .f32) (SX : FVec Ideal S50000x128 .f32)
    (SP : FVec Ideal S50000x3 .f32) (CN : FVec Ideal S50000x1 .f32) (Wh1 : FVec Ideal S128x128 .f32)
    (bh1 : FVec Ideal S128 .f32) (Wh2 : FVec Ideal S128x3 .f32) (bh2 : FVec Ideal S3 .f32) (Wp : FVec Ideal S3x128 .f32)
    (Wx : FVec Ideal S128x128 .f32) (bg1 : FVec Ideal S128 .f32) (Wg2 : FVec Ideal S128x128 .f32)
    (bg2 : FVec Ideal S128 .f32) : FVec Ideal S50000x128 .f32 :=
  fun i => nodeRow (row X ⟨(i 0).val, idx2_lt0 i⟩) (row P ⟨(i 0).val, idx2_lt0 i⟩) (row SX ⟨(i 0).val, idx2_lt0 i⟩)
    (row SP ⟨(i 0).val, idx2_lt0 i⟩) (CN (ix2 ⟨(i 0).val, idx2_lt0 i⟩ (0 : Fin 1)))
    (mat Wh1) (vec bh1) (mat Wh2) (vec bh2) (mat Wp) (mat Wx) (vec bg1) (mat Wg2) (vec bg2) ⟨(i 1).val, idx2_lt1 i⟩

end Cert.KernelIdeal.ArrValue

end
-- ==== Proof.KernelHost.lean ====
/-
  WHAT THE REGION FINDS IN THE ARRAYS THE HOST WROTE, READ AT AN INDEX.

  Before the region the host computes, from the edge array `EI`, the features `X`, the positions `P` and the first
  weight of the update `W`:

  * the summed source features: a row gather of `X` through the wrapped source words, scattered (added) by the raw target
    words into a zero array — at `(n, k)` the sum over the edges landing at `n` of `X` at the source's row (`segX_apply`);
  * the summed source positions, the same with `P` (`segP_apply`);
  * the counts: ones scattered by the raw target words, seen as a column — at `(n, 0)` the sum of one per landing edge
    (`cnt_apply`);
  * the first three rows and the last 128 rows of `W` (`wPos_apply`, `wX_apply`).

  The index vectors are read first: the raw target words as a column (`dstIdx_apply`), the wrapped source words as a
  column (`wrapIdx_apply`).
-/
import proofs.«123382_j87875030876558_2_alg».proof.Proof.Gen.KernelIdeal.Frame
import proofs.«123382_j87875030876558_2_alg».proof.Proof.LibScatterRows
import proofs.«123382_j87875030876558_2_alg».proof.Proof.LibScatterVec
import proofs.«123382_j87875030876558_2_alg».proof.Proof.LibGatherRows
import proofs.«123382_j87875030876558_2_alg».proof.Proof.LibColumns
import proofs.«123382_j87875030876558_2_alg».proof.Proof.LibRowOps
import proofs.«123382_j87875030876558_2_alg».proof.Proof.EdgeSpec
import proofs.«123382_j87875030876558_2_alg».proof.Proof.KernelRow
import Idealize.ShloMosaic.Lib.StableHlo.Run
import Idealize.ShloMosaic.Lib.ValueLayout
import Idealize.ShloMosaic.Lib.Pipeline.Value

noncomputable section

open scoped BigOperators

open Idealize.ShloMosaic Idealize.ShloMosaic.TcCoe Idealize.SL.Sem

namespace Cert.KernelIdeal.HostValue

open Cert.KernelIdeal Cert.KernelIdeal.Gen Idealize.ShloMosaic.ValueIdx Cert.NodeUpdate

/-! ## The index vectors -/

/-- A vector seen as a column by a broadcast along a new trailing unit axis reads the vector at the row. -/
theorem bcast_col_apply {α : Type} {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) :=
  broadcastInDim_apply ![0] h v (ix2 i u) (ix1 i) fun ax => by
    match ax with
    | ⟨0, _⟩ =>
      show i.val = if a = 1 then 0 else i.val
      split
      · have := i.isLt; omega
      · rfl

/-- The target words as they are, one per row. -/
def dstVec (EI : IVec S2x800000 32) : IVec S800000 32 :=
  shapeCast S800000 (extractStridedSlice S1x800000 ![1, 0] EI slices_S2x800000_S1x800000_1_0) shapeCasts_S1x800000_S800000

/-- The source words as they are. -/
def srcVec (EI : IVec S2x800000 32) : IVec S800000 32 :=
  shapeCast S800000 (extractStridedSlice S1x800000 ![0, 0] EI slices_S2x800000_S1x800000_0_0) shapeCasts_S1x800000_S800000

/-- A vector of words as a column of scatter indices. -/
def colIdx (v : IVec S800000 32) : IVec S800000x1 32 := broadcastInDim S800000x1 ![0] bcast_S800000_S800000x1_0 v

/-- A vector of words with the negative-index convention applied, as a column of start indices. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

theorem dstVec_apply (EI : IVec S2x800000 32) (e : Fin 800000) : dstVec EI (ix1 e) = dstWord EI e := by
  unfold dstVec dstWord
  rw [shapeCast_1a_a_apply]
  exact slice2_axis0_apply 1 EI slices_S2x800000_S1x800000_1_0 (0 : Fin 1) e (1 : Fin 2) rfl

theorem srcVec_apply (EI : IVec S2x800000 32) (e : Fin 800000) : srcVec EI (ix1 e) = srcWord EI e := by
  unfold srcVec srcWord
  rw [shapeCast_1a_a_apply]
  exact slice2_axis0_apply 0 EI slices_S2x800000_S1x800000_0_0 (0 : Fin 1) e (0 : Fin 2) rfl

theorem colIdx_apply (v : IVec S800000 32) (e : Fin 800000) : colIdx v (ix2 e (0 : Fin 1)) = v (ix1 e) := by
  unfold colIdx
  exact bcast_col_apply v bcast_S800000_S800000x1_0 e 0

theorem wrapIdx_apply (v : IVec S800000 32) (e : Fin 800000) : wrapIdx v (ix2 e (0 : Fin 1)) = wrapWord (v (ix1 e)) := by
  unfold wrapIdx
  rw [bcast_col_apply]
  rfl

/-! ## The arrays the host wrote -/

variable (m : (ℓ : Loc nD τ sig) → Buf (Elt Ideal) ℓ)

/-- The zero array a segment sum starts from. -/
abbrev zeros (s : Shape) (h : S_.BroadcastsInDim s ![]) : FVec Ideal s .f32 :=
  broadcastInDim s ![] h (constant S_ .f32 0x00000000#32)

set_option maxHeartbeats 4000000 in
theorem V_segX (c : Dev nD) :
    (V m c main_v20 : FVec Ideal S50000x128 .f32)
      = Host.scatterAdd scatter_S50000x128_S800000x1_S800000x128_1_0_0_1 (zeros S50000x128 bcast_S_S50000x128)
          (colIdx (dstVec (m ((c : Thread nD τ).loc main_arg2))))
          (Host.gather gather_S50000x128_S800000x1_S800000x128_1_0_n_n_0_1_1128 (m ((c : Thread nD τ).loc main_arg0))
            (wrapIdx (srcVec (m ((c : Thread nD τ).loc main_arg2))))) := by
  dsimp only [Gen.V, Gen.hostOps0]
  after_results_simp
  rfl

set_option maxHeartbeats 4000000 in
theorem V_segP (c : Dev nD) :
    (V m c main_v23 : FVec Ideal S50000x3 .f32)
      = Host.scatterAdd scatter_S50000x3_S800000x1_S800000x3_1_0_0_1 (zeros S50000x3 bcast_S_S50000x3)
          (colIdx (dstVec (m ((c : Thread nD τ).loc main_arg2))))
          (Host.gather gather_S50000x3_S800000x1_S800000x3_1_0_n_n_0_1_13 (m ((c : Thread nD τ).loc main_arg1))
            (wrapIdx (srcVec (m ((c : Thread nD τ).loc main_arg2))))) := by
  dsimp only [Gen.V, Gen.hostOps0]
  after_results_simp
  rfl

set_option maxHeartbeats 4000000 in
theorem V_cnt (c : Dev nD) :
    (V m c main_v28 : FVec Ideal S50000x1 .f32)
      = shapeCast S50000x1
          (Host.scatterAdd scatter_S50000_S800000x1_S800000_n_0_0_1 (zeros S50000 bcast_S_S50000)
            (colIdx (dstVec (m ((c : Thread nD τ).loc main_arg2))))
            (broadcastInDim S800000 ![] bcast_S_S800000 (constant S_ .f32 0x3F800000#32)))
          shapeCasts_S50000_S50000x1 := by
  dsimp only [Gen.V, Gen.hostOps0]
  after_results_simp
  rfl

set_option maxHeartbeats 4000000 in
theorem V_wPos (c : Dev nD) :
    (V m c main_v29 : FVec Ideal S3x128 .f32)
      = extractStridedSlice S3x128 ![0, 0] (m ((c : Thread nD τ).loc main_arg7)) slices_S131x128_S3x128_0_0 := by
  dsimp only [Gen.V, Gen.hostOps0]
  after_results_simp

set_option maxHeartbeats 4000000 in
theorem V_wX (c : Dev nD) :
    (V m c main_v30 : FVec Ideal S128x128 .f32)
      = extractStridedSlice S128x128 ![3, 0] (m ((c : Thread nD τ).loc main_arg7)) slices_S131x128_S128x128_3_0 := by
  dsimp only [Gen.V, Gen.hostOps0]
  after_results_simp

/-! ## Read at an index -/

theorem zeros_apply (s : Shape) (h : S_.BroadcastsInDim s ![]) (j : s.Idx) : zeros s h j = zeroE :=
  RowOps.broadcastInDim_scalar_apply h _ j

/-- The summed source features at `(n, k)`. -/
theorem segX_apply (c : Dev nD) (n : Fin 50000) (k : Fin 128) :
    (V m c main_v20 : FVec Ideal S50000x128 .f32) (ix2 n k)
      = landSum (m ((c : Thread nD τ).loc main_arg2)) n fun e =>
          (m ((c : Thread nD τ).loc main_arg0) : FVec Ideal S50000x128 .f32)
            (ix2 (gRow (srcWord (m ((c : Thread nD τ).loc main_arg2)) e)) k) := by
  rw [V_segX, ScatterRows.scatterAdd_rows_apply' _ rfl rfl rfl rfl, zeros_apply]
  unfold landSum
  refine congrArg (fun s => zeroE + s) (Finset.sum_congr rfl fun e _ => ?_)
  rw [colIdx_apply, dstVec_apply,
    GatherRows.gather_rows_apply' (by decide) _ rfl rfl rfl rfl rfl rfl rfl, wrapIdx_apply, srcVec_apply]
  rfl

/-- The summed source positions at `(n, l)`. -/
theorem segP_apply (c : Dev nD) (n : Fin 50000) (l : Fin 3) :
    (V m c main_v23 : FVec Ideal S50000x3 .f32) (ix2 n l)
      = landSum (m ((c : Thread nD τ).loc main_arg2)) n fun e =>
          (m ((c : Thread nD τ).loc main_arg1) : FVec Ideal S50000x3 .f32)
            (ix2 (gRow (srcWord (m ((c : Thread nD τ).loc main_arg2)) e)) l) := by
  rw [V_segP, ScatterRows.scatterAdd_rows_apply' _ rfl rfl rfl rfl, zeros_apply]
  unfold landSum
  refine congrArg (fun s => zeroE + s) (Finset.sum_congr rfl fun e _ => ?_)
  rw [colIdx_apply, dstVec_apply,
    GatherRows.gather_rows_apply' (by decide) _ rfl rfl rfl rfl rfl rfl rfl, wrapIdx_apply, srcVec_apply]
  rfl

/-- The count at `(n, 0)`: one per landing edge. -/
theorem cnt_apply (c : Dev nD) (n : Fin 50000) :
    (V m c main_v28 : FVec Ideal S50000x1 .f32) (ix2 n (0 : Fin 1))
      = landSum (m ((c : Thread nD τ).loc main_arg2)) n fun _ => oneE := by
  rw [V_cnt, shapeCast_a_a1_apply, ScatterVec.scatterAdd_vec_apply' _ rfl rfl rfl rfl, zeros_apply]
  unfold landSum
  refine congrArg (fun s => zeroE + s) (Finset.sum_congr rfl fun e _ => ?_)
  rw [colIdx_apply, dstVec_apply, RowOps.broadcastInDim_scalar_apply]
  rfl

/-- The first three rows of the first weight. -/
theorem wPos_apply (c : Dev nD) (l : Fin 3) (k : Fin 128) :
    (V m c main_v29 : FVec Ideal S3x128 .f32) (ix2 l k)
      = (m ((c : Thread nD τ).loc main_arg7) : FVec Ideal S131x128 .f32) (ix2 (colPos l) k) := by
  rw [V_wPos]
  exact slice2_axis0_apply 0 _ slices_S131x128_S3x128_0_0 l k (colPos l) (by show l.val = 0 + l.val; omega)

/-- Its last 128 rows. -/
theorem wX_apply (c : Dev nD) (l : Fin 128) (k : Fin 128) :
    (V m c main_v30 : FVec Ideal S128x128 .f32) (ix2 l k)
      = (m ((c : Thread nD τ).loc main_arg7) : FVec Ideal S131x128 .f32) (ix2 (colX l) k) := by
  rw [V_wX]
  exact slice2_axis0_apply 3 _ slices_S131x128_S128x128_3_0 l k (colX l) (by show l.val + 3 = 3 + l.val; omega)

end Cert.KernelIdeal.HostValue

namespace Cert.KernelIdeal.ArrValue

open Cert.KernelIdeal Cert.KernelIdeal.Gen

/-- The whole-array function of the arrays the region finds, in the order of the body's operands. -/
abbrev nodeArrV (m : (ℓ : Loc nD τ sig) → Buf (Elt Ideal) ℓ) (c : Dev nD) : FVec Ideal S50000x128 .f32 :=
  nodeArr (V m c main_arg0) (V m c main_arg1) (V m c main_v20) (V m c main_v23) (V m c main_v28) (V m c main_arg3)
    (V m c main_arg4) (V m c main_arg5) (V m c main_arg6) (V m c main_v29) (V m c main_v30) (V m c main_arg8)
    (V m c main_arg9) (V m c main_arg10)

/-- A family of arrays, one per buffer of the core, read through window `w`'s block at point `t`. The windows' blocks
    are this with the arrays the region finds; stating the block reads for ANY family keeps them independent of how
    those arrays were computed. -/
def rd (c : Dev nD) (W : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (W (Pipeline.arrRef spec0 w))

theorem iblk_eq_rd (m : (ℓ : Loc nD τ sig) → Buf (Elt Ideal) ℓ) (c : Dev nD) (w : Fin cfg0.W) (t : Fin cfg0.N) :
    iblk m c w t = rd c (V m c) w t := rfl

end Cert.KernelIdeal.ArrValue

end
-- ==== Proof.KernelBlocksA.lean ====
/-
  THE PER-NODE WINDOWS' BLOCKS AT A GRID POINT, AS ROWS OF THEIR ARRAYS.

  Point `t` works on nodes `2000 t … 2000 t + 1999`: the block at `t` of the features, the positions, the summed source
  features, the summed source positions and the counts is rows `2000 t + p` of the array (`rows0` … `rows4`). The result
  window moves the same way (`idx14`).
  Stated for ANY family `W` of arrays read through the window (`rd`): a block's coordinate on an axis is block index ×
  block size + the coordinate inside the block, and the block indices are decided over the 25 grid points, one window
  at a time.
-/
import proofs.«123382_j87875030876558_2_alg».proof.Proof.Gen.KernelIdeal.Value
import proofs.«123382_j87875030876558_2_alg».proof.Proof.KernelHost
import Idealize.ShloMosaic.Lib.Pipeline.Value

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx Cert.NodeUpdate

theorem hz2 : (![0, 0] : Fin 2 → Nat) = fun _ => 0 := funext fun a => by fin_cases a <;> rfl
theorem hz1 : (![0] : Fin 1 → Nat) = fun _ => 0 := funext fun a => by fin_cases a <;> rfl

theorem t_lt (t : Fin cfg0.N) : t.val < 25 := by
  have h : cfg0.N = 25 := N_0
  have := t.isLt
  omega

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx14 : ∀ t : Fin cfg0.N, win0_14.index t (0 : Fin 2) = t.val ∧ win0_14.index t (1 : Fin 2) = 0 :=
  (by decide +kernel : ∀ t : Fin grid0.N, _)

theorem rows0 (c : Dev nD) (W : (b : Ref sig .tc) → Buf (Elt Ideal) ((c : Thread nD τ).loc b)) (t : Fin cfg0.N)
    (p : Fin 2000) (k : Fin 128) (n : Fin 50000) (hn : n.val = t.val * 2000 + p.val) :
    (rd c W 0 t : FVec Ideal S2000x128 .f32) (ix2 p k) = (W main_arg0 : FVec Ideal S50000x128 .f32) (ix2 n k) := by
  have hi := idx0 t
  unfold rd
  rw [View.read_apply]
  show W main_arg0 _ = W main_arg0 _
  congr 1
  funext a; apply Fin.ext
  match a with
  | ⟨0, _⟩ => show win0_0.index t 0 * 2000 + 1 * p.val = n.val; rw [hi.1, hn]; omega
  | ⟨1, _⟩ => show win0_0.index t 1 * 128 + 1 * k.val = k.val; rw [hi.2]; omega

theorem rows1 (c : Dev nD) (W : (b : Ref sig .tc) → Buf (Elt Ideal) ((c : Thread nD τ).loc b)) (t : Fin cfg0.N)
    (p : Fin 2000) (k : Fin 3) (n : Fin 50000) (hn : n.val = t.val * 2000 + p.val) :
    (rd c W 1 t : FVec Ideal S2000x3 .f32) (ix2 p k) = (W main_arg1 : FVec Ideal S50000x3 .f32) (ix2 n k) := by
  have hi := idx1 t
  unfold rd
  rw [View.read_apply]
  show W main_arg1 _ = W main_arg1 _
  congr 1
  funext a; apply Fin.ext
  match a with
  | ⟨0, _⟩ => show win0_1.index t 0 * 2000 + 1 * p.val = n.val; rw [hi.1, hn]; omega
  | ⟨1, _⟩ => show win0_1.index t 1 * 3 + 1 * k.val = k.val; rw [hi.2]; omega

theorem rows2 (c : Dev nD) (W : (b : Ref sig .tc) → Buf (Elt Ideal) ((c : Thread nD τ).loc b)) (t : Fin cfg0.N)
    (p : Fin 2000) (k : Fin 128) (n : Fin 50000) (hn : n.val = t.val * 2000 + p.val) :
    (rd c W 2 t : FVec Ideal S2000x128 .f32) (ix2 p k) = (W main_v20 : FVec Ideal S50000x128 .f32) (ix2 n k) := by
  have hi := idx2 t
  unfold rd
  rw [View.read_apply]
  show W main_v20 _ = W main_v20 _
  congr 1
  funext a; apply Fin.ext
  match a with
  | ⟨0, _⟩ => show win0_2.index t 0 * 2000 + 1 * p.val = n.val; rw [hi.1, hn]; omega
  | ⟨1, _⟩ => show win0_2.index t 1 * 128 + 1 * k.val = k.val; rw [hi.2]; omega

theorem rows3 (c : Dev nD) (W : (b : Ref sig .tc) → Buf (Elt Ideal) ((c : Thread nD τ).loc b)) (t : Fin cfg0.N)
    (p : Fin 2000) (k : Fin 3) (n : Fin 50000) (hn : n.val = t.val * 2000 + p.val) :
    (rd c W 3 t : FVec Ideal S2000x3 .f32) (ix2 p k) = (W main_v23 : FVec Ideal S50000x3 .f32) (ix2 n k) := by
  have hi := idx3 t
  unfold rd
  rw [View.read_apply]
  show W main_v23 _ = W main_v23 _
  congr 1
  funext a; apply Fin.ext
  match a with
  | ⟨0, _⟩ => show win0_3.index t 0 * 2000 + 1 * p.val = n.val; rw [hi.1, hn]; omega
  | ⟨1, _⟩ => show win0_3.index t 1 * 3 + 1 * k.val = k.val; rw [hi.2]; omega

theorem rows4 (c : Dev nD) (W : (b : Ref sig .tc) → Buf (Elt Ideal) ((c : Thread nD τ).loc b)) (t : Fin cfg0.N)
    (p : Fin 2000) (k : Fin 1) (n : Fin 50000) (hn : n.val = t.val * 2000 + p.val) :
    (rd c W 4 t : FVec Ideal S2000x1 .f32) (ix2 p k) = (W main_v28 : FVec Ideal S50000x1 .f32) (ix2 n k) := by
  have hi := idx4 t
  unfold rd
  rw [View.read_apply]
  show W main_v28 _ = W main_v28 _
  congr 1
  funext a; apply Fin.ext
  match a with
  | ⟨0, _⟩ => show win0_4.index t 0 * 2000 + 1 * p.val = n.val; rw [hi.1, hn]; omega
  | ⟨1, _⟩ => show win0_4.index t 1 * 1 + 1 * k.val = k.val; rw [hi.2]; omega

end Cert.KernelIdeal.ArrValue

end
-- ==== Proof.KernelBlocksB.lean ====
/-
  THE FIRST FIVE WEIGHT WINDOWS' BLOCKS AT A GRID POINT.

  A weight operand stays at its one block at every point, and that block is the whole array (`whole5` … `whole9`).
  Stated for ANY family `W` of arrays read through the window (`rd`): a block's coordinate on an axis is block index ×
  block size + the coordinate inside the block, and the block indices are decided over the 25 grid points, one window
  at a time.
-/
import proofs.«123382_j87875030876558_2_alg».proof.Proof.Gen.KernelIdeal.Value
import proofs.«123382_j87875030876558_2_alg».proof.Proof.KernelHost
import Idealize.ShloMosaic.Lib.Pipeline.Value

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx Cert.NodeUpdate

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 1) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 1) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem whole5 (c : Dev nD) (W : (b : Ref sig .tc) → Buf (Elt Ideal) ((c : Thread nD τ).loc b)) (t : Fin cfg0.N) :
    (rd c W 5 t : FVec Ideal S128x128 .f32) = W main_arg3 := by
  have hi := idx5 t
  funext x
  unfold rd
  rw [View.read_apply]
  show W main_arg3 _ = W main_arg3 _
  congr 1
  funext a; apply Fin.ext
  match a with
  | ⟨0, _⟩ => show win0_5.index t 0 * 128 + 1 * (x 0).val = (x 0).val; rw [hi.1]; omega
  | ⟨1, _⟩ => show win0_5.index t 1 * 128 + 1 * (x 1).val = (x 1).val; rw [hi.2]; omega

theorem whole6 (c : Dev nD) (W : (b : Ref sig .tc) → Buf (Elt Ideal) ((c : Thread nD τ).loc b)) (t : Fin cfg0.N) :
    (rd c W 6 t : FVec Ideal S128 .f32) = W main_arg4 := by
  have hi := idx6 t
  funext x
  unfold rd
  rw [View.read_apply]
  show W main_arg4 _ = W main_arg4 _
  congr 1
  funext a; apply Fin.ext
  match a with
  | ⟨0, _⟩ => show win0_6.index t 0 * 128 + 1 * (x 0).val = (x 0).val; rw [hi]; omega

theorem whole7 (c : Dev nD) (W : (b : Ref sig .tc) → Buf (Elt Ideal) ((c : Thread nD τ).loc b)) (t : Fin cfg0.N) :
    (rd c W 7 t : FVec Ideal S128x3 .f32) = W main_arg5 := by
  have hi := idx7 t
  funext x
  unfold rd
  rw [View.read_apply]
  show W main_arg5 _ = W main_arg5 _
  congr 1
  funext a; apply Fin.ext
  match a with
  | ⟨0, _⟩ => show win0_7.index t 0 * 128 + 1 * (x 0).val = (x 0).val; rw [hi.1]; omega
  | ⟨1, _⟩ => show win0_7.index t 1 * 3 + 1 * (x 1).val = (x 1).val; rw [hi.2]; omega

theorem whole8 (c : Dev nD) (W : (b : Ref sig .tc) → Buf (Elt Ideal) ((c : Thread nD τ).loc b)) (t : Fin cfg0.N) :
    (rd c W 8 t : FVec Ideal S3 .f32) = W main_arg6 := by
  have hi := idx8 t
  funext x
  unfold rd
  rw [View.read_apply]
  show W main_arg6 _ = W main_arg6 _
  congr 1
  funext a; apply Fin.ext
  match a with
  | ⟨0, _⟩ => show win0_8.index t 0 * 3 + 1 * (x 0).val = (x 0).val; rw [hi]; omega

theorem whole9 (c : Dev nD) (W : (b : Ref sig .tc) → Buf (Elt Ideal) ((c : Thread nD τ).loc b)) (t : Fin cfg0.N) :
    (rd c W 9 t : FVec Ideal S3x128 .f32) = W main_v29 := by
  have hi := idx9 t
  funext x
  unfold rd
  rw [View.read_apply]
  show W main_v29 _ = W main_v29 _
  congr 1
  funext a; apply Fin.ext
  match a with
  | ⟨0, _⟩ => show win0_9.index t 0 * 3 + 1 * (x 0).val = (x 0).val; rw [hi.1]; omega
  | ⟨1, _⟩ => show win0_9.index t 1 * 128 + 1 * (x 1).val = (x 1).val; rw [hi.2]; omega

end Cert.KernelIdeal.ArrValue

end
-- ==== Proof.KernelBlocksC.lean ====
/-
  THE LAST FOUR WEIGHT WINDOWS' BLOCKS AT A GRID POINT.

  A weight operand stays at its one block at every point, and that block is the whole array (`whole10` … `whole13`).
  Stated for ANY family `W` of arrays read through the window (`rd`): a block's coordinate on an axis is block index ×
  block size + the coordinate inside the block, and the block indices are decided over the 25 grid points, one window
  at a time.
-/
import proofs.«123382_j87875030876558_2_alg».proof.Proof.Gen.KernelIdeal.Value
import proofs.«123382_j87875030876558_2_alg».proof.Proof.KernelHost
import Idealize.ShloMosaic.Lib.Pipeline.Value

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx Cert.NodeUpdate

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 1) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 1) = 0 :=
  (by decide +kernel : ∀ t : Fin grid0.N, _)

theorem whole10 (c : Dev nD) (W : (b : Ref sig .tc) → Buf (Elt Ideal) ((c : Thread nD τ).loc b)) (t : Fin cfg0.N) :
    (rd c W 10 t : FVec Ideal S128x128 .f32) = W main_v30 := by
  have hi := idx10 t
  funext x
  unfold rd
  rw [View.read_apply]
  show W main_v30 _ = W main_v30 _
  congr 1
  funext a; apply Fin.ext
  match a with
  | ⟨0, _⟩ => show win0_10.index t 0 * 128 + 1 * (x 0).val = (x 0).val; rw [hi.1]; omega
  | ⟨1, _⟩ => show win0_10.index t 1 * 128 + 1 * (x 1).val = (x 1).val; rw [hi.2]; omega

theorem whole11 (c : Dev nD) (W : (b : Ref sig .tc) → Buf (Elt Ideal) ((c : Thread nD τ).loc b)) (t : Fin cfg0.N) :
    (rd c W 11 t : FVec Ideal S128 .f32) = W main_arg8 := by
  have hi := idx11 t
  funext x
  unfold rd
  rw [View.read_apply]
  show W main_arg8 _ = W main_arg8 _
  congr 1
  funext a; apply Fin.ext
  match a with
  | ⟨0, _⟩ => show win0_11.index t 0 * 128 + 1 * (x 0).val = (x 0).val; rw [hi]; omega

theorem whole12 (c : Dev nD) (W : (b : Ref sig .tc) → Buf (Elt Ideal) ((c : Thread nD τ).loc b)) (t : Fin cfg0.N) :
    (rd c W 12 t : FVec Ideal S128x128 .f32) = W main_arg9 := by
  have hi := idx12 t
  funext x
  unfold rd
  rw [View.read_apply]
  show W main_arg9 _ = W main_arg9 _
  congr 1
  funext a; apply Fin.ext
  match a with
  | ⟨0, _⟩ => show win0_12.index t 0 * 128 + 1 * (x 0).val = (x 0).val; rw [hi.1]; omega
  | ⟨1, _⟩ => show win0_12.index t 1 * 128 + 1 * (x 1).val = (x 1).val; rw [hi.2]; omega

theorem whole13 (c : Dev nD) (W : (b : Ref sig .tc) → Buf (Elt Ideal) ((c : Thread nD τ).loc b)) (t : Fin cfg0.N) :
    (rd c W 13 t : FVec Ideal S128 .f32) = W main_arg10 := by
  have hi := idx13 t
  funext x
  unfold rd
  rw [View.read_apply]
  show W main_arg10 _ = W main_arg10 _
  congr 1
  funext a; apply Fin.ext
  match a with
  | ⟨0, _⟩ => show win0_13.index t 0 * 128 + 1 * (x 0).val = (x 0).val; rw [hi]; omega

end Cert.KernelIdeal.ArrValue

end
-- ==== Proof.KernelValue.lean ====
/-
  THE KERNEL'S RESULT ARRAY AS ONE FUNCTION OF THE ARRAYS THE REGION FINDS.

  The body is row-wise (KernelRow.lean) and each window's block at point `t` is rows of its array (KernelBlocksA, B, C), so
  what point `t` writes back is rows `2000 t …` of ONE whole-array function `nodeArr`: the one-row function of each node's
  own rows (`flushed_eq`). The 25 blocks tile the 50000 rows (the block of row `r` is point `r / 2000`), so the result
  array ends holding `nodeArr` of the arrays as the region finds them (`final`), and the run is re-posted with it (`run`).
-/
import proofs.«123382_j87875030876558_2_alg».proof.Proof.KernelBlocksA
import proofs.«123382_j87875030876558_2_alg».proof.Proof.KernelBlocksB
import proofs.«123382_j87875030876558_2_alg».proof.Proof.KernelBlocksC

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx Cert.NodeUpdate

variable (m : (ℓ : Loc nD τ sig) → Buf (Elt Ideal) ℓ) (ρ : Dev nD → PrngReg)

/-! ## What a point writes back, the cover, the array -/

/-- THE BODY ON THE BLOCKS OF ANY FAMILY OF ARRAYS, at row `p` of point `t`, is the whole-array function of the family at
    node `2000 t + p`: the per-node blocks are that node's rows, the weight blocks the whole weights. -/
theorem body_rows (c : Dev nD) (W : (b : Ref sig .tc) → Buf (Elt Ideal) ((c : Thread nD τ).loc b)) (t : Fin cfg0.N) (p : Fin 2000) (q : Fin 128) :
    k0_pay1 (F := Ideal) (rd c W 0 t) (k0_pay2 (rd c W 2 t))
        (k0_pay4 (rd c W 0 t) (rd c W 5 t) (rd c W 6 t) (rd c W 7 t) (rd c W 8 t)) (k0_pay5 (rd c W 4 t))
        (k0_pay7 (rd c W 1 t) (rd c W 3 t) (rd c W 4 t)) (k0_pay8 (rd c W 4 t))
        (rd c W 9 t) (rd c W 10 t) (rd c W 11 t) (rd c W 12 t) (rd c W 13 t) (ix2 p q)
      = nodeArr (W main_arg0) (W main_arg1) (W main_v20) (W main_v23) (W main_v28) (W main_arg3) (W main_arg4)
          (W main_arg5) (W main_arg6) (W main_v29) (W main_v30) (W main_arg8) (W main_arg9) (W main_arg10)
          (ix2 (⟨t.val * 2000 + p.val, by have := t_lt t; have := p.isLt; omega⟩ : Fin 50000) q) := by
  have ht := t_lt t
  refine (RowValue.body_apply (rd c W 0 t) (rd c W 1 t) (rd c W 2 t) (rd c W 3 t) (rd c W 4 t) (rd c W 5 t)
    (rd c W 6 t) (rd c W 7 t) (rd c W 8 t) (rd c W 9 t) (rd c W 10 t) (rd c W 11 t) (rd c W 12 t)
    (rd c W 13 t) p q).trans ?_
  rw [whole5 c W t, whole6 c W t, whole7 c W t, whole8 c W t, whole9 c W t, whole10 c W t, whole11 c W t,
    whole12 c W t, whole13 c W t]
  have e0 : row (rd c W 0 t : FVec Ideal S2000x128 .f32) p
      = row (W main_arg0 : FVec Ideal S50000x128 .f32) ⟨t.val * 2000 + p.val, by have := p.isLt; omega⟩ :=
    funext fun k => rows0 c W t p k _ rfl
  have e1 : row (rd c W 1 t : FVec Ideal S2000x3 .f32) p
      = row (W main_arg1 : FVec Ideal S50000x3 .f32) ⟨t.val * 2000 + p.val, by have := p.isLt; omega⟩ :=
    funext fun k => rows1 c W t p k _ rfl
  have e2 : row (rd c W 2 t : FVec Ideal S2000x128 .f32) p
      = row (W main_v20 : FVec Ideal S50000x128 .f32) ⟨t.val * 2000 + p.val, by have := p.isLt; omega⟩ :=
    funext fun k => rows2 c W t p k _ rfl
  have e3 : row (rd c W 3 t : FVec Ideal S2000x3 .f32) p
      = row (W main_v23 : FVec Ideal S50000x3 .f32) ⟨t.val * 2000 + p.val, by have := p.isLt; omega⟩ :=
    funext fun k => rows3 c W t p k _ rfl
  have e4 : (rd c W 4 t : FVec Ideal S2000x1 .f32) (ix2 p (0 : Fin 1))
      = (W main_v28 : FVec Ideal S50000x1 .f32) (ix2 ⟨t.val * 2000 + p.val, by have := p.isLt; omega⟩ (0 : Fin 1)) :=
    rows4 c W t p 0 _ rfl
  rw [e0, e1, e2, e3, e4]
  rfl

/-- WHAT POINT `t` WRITES BACK is block `t` of the whole-array function of the arrays the region finds. -/
theorem flushed_eq (c : Dev nD) (t : Fin cfg0.N) :
    (dats m 0 c).flushed 14 t = ((cfg0.win 14).blk t).view.read (Elt Ideal) (nodeArrV m c) := by
  have ht := t_lt t
  have hi := idx14 t
  show (cfg0.win 14).cut (grid0.coords t) ((dats m 0 c).after 14 t) = _
  rw [after0_14]
  unfold out0_14
  rw [View.canon_unit_zero hz2]
  simp only [View.ld_unit_zero (S := S2000x128) hz2, View.ld_unit_zero (S := S2000x3) hz2,
    View.ld_unit_zero (S := S2000x1) hz2, View.ld_unit_zero (S := S128x128) hz2, View.ld_unit_zero (S := S128x3) hz2,
    View.ld_unit_zero (S := S3x128) hz2, View.ld_unit_zero (S := S128) hz1, View.ld_unit_zero (S := S3) hz1]
  simp only [iblk_eq_rd]
  funext j
  obtain ⟨p, q, rfl⟩ : ∃ (p : Fin 2000) (q : Fin 128), j = ix2 p q := ⟨j 0, j 1, eq_ix2 j⟩
  have hemb : ((cfg0.win 14).blk t).view.emb (ix2 p q)
      = (ix2 (⟨t.val * 2000 + p.val, by have := p.isLt; omega⟩ : Fin 50000) q : S50000x128.Idx) := by
    funext a; apply Fin.ext
    match a with
    | ⟨0, _⟩ => show win0_14.index t 0 * 2000 + 1 * p.val = t.val * 2000 + p.val; rw [hi.1]; omega
    | ⟨1, _⟩ => show win0_14.index t 1 * 128 + 1 * q.val = q.val; rw [hi.2]; omega
  rw [View.read_apply, hemb]
  exact body_rows c (V m c) t p q

/-- An index of the array is in point `t`'s block iff each coordinate is in the block's range on its axis. -/
theorem mem_blk (t : Fin cfg0.N) (i : S50000x128.Idx) :
    i ∈ ((cfg0.win 14).blk t).view.set ↔ ∀ a : Fin 2, win0_14.index t a * S2000x128.size a ≤ (i a).val
      ∧ (i a).val < win0_14.index t a * S2000x128.size a + S2000x128.size a := by
  show i ∈ ((View.whole main_v31).slice (win0_14.rect t)).set ↔ _
  rw [View.set_slice_whole, Rect.mem_set_unit]
  exact Iff.rfl

/-- The blocks tile the array: row `r` is in the block of point `r / 2000`. -/
theorem cover (i : S50000x128.Idx) : ∃ t : Fin cfg0.N, (cfg0.win 14).flush t = true ∧ i ∈ ((cfg0.win 14).blk t).view.set := by
  have hi0 : (i 0).val < 50000 := (i 0).isLt
  have hi1 : (i 1).val < 128 := (i 1).isLt
  have hN : cfg0.N = 25 := N_0
  let t : Fin cfg0.N := ⟨(i 0).val / 2000, by omega⟩
  have hi := idx14 t
  have htv : t.val = (i 0).val / 2000 := rfl
  refine ⟨t, flush0_14 t, ?_⟩
  rw [mem_blk]
  intro a
  match a with
  | ⟨0, _⟩ =>
    show win0_14.index t 0 * 2000 ≤ (i 0).val ∧ (i 0).val < win0_14.index t 0 * 2000 + 2000
    rw [hi.1, htv]; omega
  | ⟨1, _⟩ =>
    show win0_14.index t 1 * 128 ≤ (i 1).val ∧ (i 1).val < win0_14.index t 1 * 128 + 128
    rw [hi.2]; omega

/-- THE RESULT ARRAY after the run is the whole-array function of the arrays the region finds. -/
theorem final (c : Dev nD) : (dats m 0 c).arrAt 14 cfg0.N = nodeArrV m c :=
  (dats m 0 c).arrAt_eq_of_cover 14 (nodeArrV m c) (fun t _ => flushed_eq m c t) cover

/-- The run, read: the result array at the whole-array function, the arguments unchanged. -/
theorem run : θ_run defs (onTc (τ := τ) (main (F := Ideal))) ⟨m, fun _ => 0, ρ⟩ fun r => ∀ c : Dev nD,
      r.2.mem ((c : Thread nD τ).loc main_v31) = nodeArrV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrValue

end
-- ==== Proof.RefRow.lean ====
/-
  THE REFERENCE, READ AT AN INDEX.

  The reference computes every node's offset first, then per EDGE the message `(pos[src] − pos[dst] + offset[dst],
  x[src])` — four row gathers through the wrapped source and target words, a difference, a sum, a join along the columns
  —, adds the messages into their target rows, counts the edges per target, divides, and applies the update. Read at
  `(n, q)`:

  * the offset of node `n` is the one-row function `NodeUpdate.offset` of its features (`offset_apply`);
  * the message of edge `e`: its first three columns (`msgPos_apply`) and its last 128 (`msgX_apply`);
  * the summed messages at `(n, c)`: the sum over the edges landing at `n` of the message's column `c` (`summed_apply`),
    and the count: one per landing edge (`count_apply`);
  * the result: `outRow` of the rectified first layer on the quotient (`result_apply`).
-/
import proofs.«123382_j87875030876558_2_alg».proof.Proof.Gen.ReferenceIdeal.Read
import proofs.«123382_j87875030876558_2_alg».proof.Proof.LibScatterRows
import proofs.«123382_j87875030876558_2_alg».proof.Proof.LibScatterVec
import proofs.«123382_j87875030876558_2_alg».proof.Proof.LibGatherRows
import proofs.«123382_j87875030876558_2_alg».proof.Proof.EdgeSpec
import Idealize.ShloMosaic.Lib.ValueIdx
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic
open Idealize.ShloMosaic.ValueIdx Cert.NodeUpdate

/-! ## The node's offset -/

theorem offset_apply (x0 : FVec Ideal S50000x128 .f32) (x3 : FVec Ideal S128x128 .f32) (x4 : FVec Ideal S128 .f32)
    (x5 : FVec Ideal S128x3 .f32) (x6 : FVec Ideal S3 .f32) (n : Fin 50000) (l : Fin 3) :
    val_main_v9 (F := Ideal) x0 x3 x4 x5 x6 (ix2 n l) = offset (row x0 n) (mat x3) (vec x4) (mat x5) (vec x6) l := by
  have e1 : ∀ k : Fin 128, lidx_main_v5 (ix2 n l) k = (ix2 n k : S50000x128.Idx) := fun k =>
    funext fun d => Fin.ext (by match d with | ⟨0, _⟩ => rfl | ⟨1, _⟩ => rfl)
  have e2 : ∀ k : Fin 128, ridx_main_v5 (ix2 n l) k = (ix2 k l : S128x3.Idx) := fun k =>
    funext fun d => Fin.ext (by match d with | ⟨0, _⟩ => rfl | ⟨1, _⟩ => rfl)
  have e3 : ∀ k i : Fin 128, lidx_main_v0 (ix2 n k) i = (ix2 n i : S50000x128.Idx) := fun k i =>
    funext fun d => Fin.ext (by match d with | ⟨0, _⟩ => rfl | ⟨1, _⟩ => rfl)
  have e4 : ∀ k i : Fin 128, ridx_main_v0 (ix2 n k) i = (ix2 i k : S128x128.Idx) := fun k i =>
    funext fun d => Fin.ext (by match d with | ⟨0, _⟩ => rfl | ⟨1, _⟩ => rfl)
  have e5 : ∀ k : Fin 128, idx_main_v1 (idx_main_v2 (ix2 n k)) = (ix1 k : S128.Idx) := fun k =>
    funext fun d => Fin.ext (by match d with | ⟨0, _⟩ => rfl)
  have e6 : idx_main_v6 (idx_main_v7 (ix2 n l)) = (ix1 l : S3.Idx) :=
    funext fun d => Fin.ext (by match d with | ⟨0, _⟩ => rfl)
  rw [val_main_v9_apply, val_main_v8_apply, val_main_v5_apply, val_main_v7_apply, val_main_v6_apply, e6]
  simp only [e1, e2, val_main_v4_apply, val_main_v3_apply, val_main_v0_apply, val_main_v2_apply, val_main_v1_apply,
    e3, e4, e5, val_main_call0_v0_apply, val_main_call0_cst_apply]
  rfl

/-! ## The edge words behind the index columns -/

theorem srcVec_apply (x2 : IVec S2x800000 32) (e : Fin 800000) : val_main_v11 (F := Ideal) x2 (ix1 e) = srcWord x2 e := by
  rw [val_main_v11_apply, val_main_v10_apply]
  unfold srcWord
  refine congrArg x2 (funext fun d => Fin.ext ?_)
  match d with
  | ⟨0, _⟩ => rfl
  | ⟨1, _⟩ => exact Nat.mod_eq_of_lt e.isLt

theorem dstVec_apply (x2 : IVec S2x800000 32) (e : Fin 800000) : val_main_v13 (F := Ideal) x2 (ix1 e) = dstWord x2 e := by
  rw [val_main_v13_apply, val_main_v12_apply]
  unfold dstWord
  refine congrArg x2 (funext fun d => Fin.ext ?_)
  match d with
  | ⟨0, _⟩ => rfl
  | ⟨1, _⟩ => exact Nat.mod_eq_of_lt e.isLt

theorem col_ix1 (e : Fin 800000) (f : S800000x1.Idx → S800000.Idx)
    (hf : ∀ i : S800000x1.Idx, ((f i) 0).val = (i 0).val) : f (ix2 e (0 : Fin 1)) = (ix1 e : S800000.Idx) :=
  funext fun d => Fin.ext (by match d with | ⟨0, _⟩ => exact hf _)

/-- The wrapped source words (for the positions). -/
theorem wrapSrcP (x2 : IVec S2x800000 32) (e : Fin 800000) :
    val_main_v19 (F := Ideal) x2 (ix2 e (0 : Fin 1)) = wrapWord (srcWord x2 e) := by
  rw [val_main_v19_apply, col_ix1 e idx_main_v19 (fun _ => rfl), val_main_v18_apply, val_main_v15_apply,
    val_main_v17_apply, val_main_v14_apply, val_main_v16_apply, val_main_c_apply, val_main_c_0_apply, srcVec_apply]
  rfl

/-- The wrapped target words (for the positions). -/
theorem wrapDstP (x2 : IVec S2x800000 32) (e : Fin 800000) :
    val_main_v26 (F := Ideal) x2 (ix2 e (0 : Fin 1)) = wrapWord (dstWord x2 e) := by
  rw [val_main_v26_apply, col_ix1 e idx_main_v26 (fun _ => rfl), val_main_v25_apply, val_main_v22_apply,
    val_main_v24_apply, val_main_v21_apply, val_main_v23_apply, val_main_c_1_apply, val_main_c_2_apply, dstVec_apply]
  rfl

/-- The wrapped target words (for the offsets). -/
theorem wrapDstD (x2 : IVec S2x800000 32) (e : Fin 800000) :
    val_main_v34 (F := Ideal) x2 (ix2 e (0 : Fin 1)) = wrapWord (dstWord x2 e) := by
  rw [val_main_v34_apply, col_ix1 e idx_main_v34 (fun _ => rfl), val_main_v33_apply, val_main_v30_apply,
    val_main_v32_apply, val_main_v29_apply, val_main_v31_apply, val_main_c_3_apply, val_main_c_4_apply, dstVec_apply]
  rfl

/-- The wrapped source words (for the features). -/
theorem wrapSrcX (x2 : IVec S2x800000 32) (e : Fin 800000) :
    val_main_v42 (F := Ideal) x2 (ix2 e (0 : Fin 1)) = wrapWord (srcWord x2 e) := by
  rw [val_main_v42_apply, col_ix1 e idx_main_v42 (fun _ => rfl), val_main_v41_apply, val_main_v38_apply,
    val_main_v40_apply, val_main_v37_apply, val_main_v39_apply, val_main_c_5_apply, val_main_c_6_apply, srcVec_apply]
  rfl

/-- The raw target words, as the two scatters read them. -/
theorem rawDstS (x2 : IVec S2x800000 32) (e : Fin 800000) :
    val_main_v46 (F := Ideal) x2 (ix2 e (0 : Fin 1)) = dstWord x2 e := by
  rw [val_main_v46_apply, col_ix1 e idx_main_v46 (fun _ => rfl), dstVec_apply]

theorem rawDstC (x2 : IVec S2x800000 32) (e : Fin 800000) :
    val_main_v50 (F := Ideal) x2 (ix2 e (0 : Fin 1)) = dstWord x2 e := by
  rw [val_main_v50_apply, col_ix1 e idx_main_v50 (fun _ => rfl), dstVec_apply]

/-! ## The gathers and the message -/

theorem gather3_apply (x : FVec Ideal S50000x3 .f32) (idx : IVec S800000x1 32) (e : Fin 800000) (l : Fin 3) :
    Host.gather gather_S50000x3_S800000x1_S800000x3_1_0_n_n_0_1_13 x idx (ix2 e l)
      = x (ix2 (GatherRows.clampRow 50000 (by decide) (idx (ix2 e (0 : Fin 1)))) l) :=
  GatherRows.gather_rows_apply' (by decide) _ rfl rfl rfl rfl rfl rfl rfl x idx e l

theorem gather128_apply (x : FVec Ideal S50000x128 .f32) (idx : IVec S800000x1 32) (e : Fin 800000) (k : Fin 128) :
    Host.gather gather_S50000x128_S800000x1_S800000x128_1_0_n_n_0_1_1128 x idx (ix2 e k)
      = x (ix2 (GatherRows.clampRow 50000 (by decide) (idx (ix2 e (0 : Fin 1)))) k) :=
  GatherRows.gather_rows_apply' (by decide) _ rfl rfl rfl rfl rfl rfl rfl x idx e k

/-- The first three columns of edge `e`'s message: the source's position minus the target's, plus the target's offset. -/
theorem msgPos_apply (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (e : Fin 800000) (l : Fin 3) :
    val_main_v36 (F := Ideal) x0 x1 x2 x3 x4 x5 x6 (ix2 e l)
      = (x1 (ix2 (gRow (srcWord x2 e)) l) - x1 (ix2 (gRow (dstWord x2 e)) l))
        + val_main_v9 (F := Ideal) x0 x3 x4 x5 x6 (ix2 (gRow (dstWord x2 e)) l) := by
  rw [val_main_v36_apply, val_main_v28_apply]
  unfold val_main_v20 val_main_v27 val_main_v35
  rw [gather3_apply, gather3_apply, gather3_apply, wrapSrcP, wrapDstP, wrapDstD]
  rfl

/-- The last 128 columns: the source's features. -/
theorem msgX_apply (x0 : FVec Ideal S50000x128 .f32) (x2 : IVec S2x800000 32) (e : Fin 800000) (k : Fin 128) :
    val_main_v43 (F := Ideal) x0 x2 (ix2 e k) = x0 (ix2 (gRow (srcWord x2 e)) k) := by
  unfold val_main_v43
  rw [gather128_apply, wrapSrcX]
  rfl

/-- The joined message: its first three columns are the position part, the rest the feature part. -/
theorem msg_colPos (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (e : Fin 800000) (l : Fin 3) :
    val_main_v44 (F := Ideal) x0 x1 x2 x3 x4 x5 x6 (ix2 e (colPos l)) = val_main_v36 (F := Ideal) x0 x1 x2 x3 x4 x5 x6 (ix2 e l) := by
  unfold val_main_v44
  exact concatenate_pair_apply_left (t := S800000x131) (s₁ := S800000x3) (s₂ := S800000x128) 1 _ _
    concatenates_S800000x3_S800000x128_S800000x131_d1 (ix2 e (colPos l)) rfl (ix2 e l)
    (fun b => by match b with | ⟨0, _⟩ => rfl | ⟨1, _⟩ => rfl)

theorem msg_colX (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (e : Fin 800000) (k : Fin 128) :
    val_main_v44 (F := Ideal) x0 x1 x2 x3 x4 x5 x6 (ix2 e (colX k)) = val_main_v43 (F := Ideal) x0 x2 (ix2 e k) := by
  unfold val_main_v44
  exact concatenate_pair_apply_right (t := S800000x131) (s₁ := S800000x3) (s₂ := S800000x128) 1 _ _
    concatenates_S800000x3_S800000x128_S800000x131_d1 (ix2 e (colX k)) rfl rfl (ix2 e k)
    (fun b hb => by match b with | ⟨0, _⟩ => rfl | ⟨1, _⟩ => exact absurd rfl hb) rfl

/-! ## The sums over the landing edges -/

/-- The summed messages at `(n, c)`. -/
theorem summed_apply (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (n : Fin 50000) (c : Fin 131) :
    val_main_v47 (F := Ideal) x0 x1 x2 x3 x4 x5 x6 (ix2 n c)
      = landSum x2 n fun e => val_main_v44 (F := Ideal) x0 x1 x2 x3 x4 x5 x6 (ix2 e c) := by
  unfold val_main_v47
  rw [ScatterRows.scatterAdd_rows_apply' _ rfl rfl rfl rfl, val_main_v45_apply, val_main_cst_apply]
  unfold landSum
  refine congrArg (fun s => zeroE + s) (Finset.sum_congr rfl fun e _ => ?_)
  rw [rawDstS]

/-- The count at `n`: one per landing edge. -/
theorem count_apply (x2 : IVec S2x800000 32) (n : Fin 50000) :
    val_main_v51 (F := Ideal) x2 (ix1 n) = landSum x2 n fun _ => oneE := by
  unfold val_main_v51
  rw [ScatterVec.scatterAdd_vec_apply' _ rfl rfl rfl rfl, val_main_v49_apply, val_main_cst_8_apply]
  unfold landSum
  refine congrArg (fun s => zeroE + s) (Finset.sum_congr rfl fun e _ => ?_)
  rw [rawDstC, val_main_v48_apply, val_main_cst_7_apply]
  rfl

/-! ## The mean, the update, the result -/

theorem mean_apply (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (n : Fin 50000) (c : Fin 131) :
    val_main_v56 (F := Ideal) x0 x1 x2 x3 x4 x5 x6 (ix2 n c)
      = aggDiv (fun c => val_main_v47 (F := Ideal) x0 x1 x2 x3 x4 x5 x6 (ix2 n c)) (val_main_v51 (F := Ideal) x2 (ix1 n)) c := by
  have e1 : idx_main_v54 (idx_main_v55 (ix2 n c)) = (ix1 n : S50000.Idx) :=
    funext fun d => Fin.ext (by match d with | ⟨0, _⟩ => rfl)
  rw [val_main_v56_apply, val_main_v55_apply, val_main_v54_apply, e1, val_main_v53_apply, val_main_v52_apply,
    val_main_cst_9_apply]
  rfl

theorem hidden_apply (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (x7 : FVec Ideal S131x128 .f32) (x8 : FVec Ideal S128 .f32) (n : Fin 50000) (k : Fin 128) :
    val_main_v61 (F := Ideal) x0 x1 x2 x3 x4 x5 x6 x7 x8 (ix2 n k)
      = hiddenWhole (fun c => val_main_v56 (F := Ideal) x0 x1 x2 x3 x4 x5 x6 (ix2 n c)) (mat x7) (vec x8) k := by
  have e1 : ∀ c : Fin 131, lidx_main_v57 (ix2 n k) c = (ix2 n c : S50000x131.Idx) := fun c =>
    funext fun d => Fin.ext (by match d with | ⟨0, _⟩ => rfl | ⟨1, _⟩ => rfl)
  have e2 : ∀ c : Fin 131, ridx_main_v57 (ix2 n k) c = (ix2 c k : S131x128.Idx) := fun c =>
    funext fun d => Fin.ext (by match d with | ⟨0, _⟩ => rfl | ⟨1, _⟩ => rfl)
  have e3 : idx_main_v58 (idx_main_v59 (ix2 n k)) = (ix1 k : S128.Idx) :=
    funext fun d => Fin.ext (by match d with | ⟨0, _⟩ => rfl)
  rw [val_main_v61_apply, val_main_v60_apply, val_main_v57_apply, val_main_v59_apply, val_main_v58_apply, e3,
    val_main_call1_v0_apply, val_main_call1_cst_apply]
  simp only [e1, e2]
  rfl

/-- THE REFERENCE AT `(n, q)`. -/
theorem result_apply (x0 : FVec Ideal S50000x128 .f32) (x1 : FVec Ideal S50000x3 .f32) (x2 : IVec S2x800000 32)
    (x3 : FVec Ideal S128x128 .f32) (x4 : FVec Ideal S128 .f32) (x5 : FVec Ideal S128x3 .f32) (x6 : FVec Ideal S3 .f32)
    (x7 : FVec Ideal S131x128 .f32) (x8 : FVec Ideal S128 .f32) (x9 : FVec Ideal S128x128 .f32)
    (x10 : FVec Ideal S128 .f32) (n : Fin 50000) (q : Fin 128) :
    val_main_v67 (F := Ideal) x0 x1 x2 x3 x4 x5 x6 x7 x8 x9 x10 (ix2 n q)
      = outRow (row x0 n) (fun k => val_main_v61 (F := Ideal) x0 x1 x2 x3 x4 x5 x6 x7 x8 (ix2 n k)) (mat x9) (vec x10) q := by
  have e1 : ∀ k : Fin 128, lidx_main_v62 (ix2 n q) k = (ix2 n k : S50000x128.Idx) := fun k =>
    funext fun d => Fin.ext (by match d with | ⟨0, _⟩ => rfl | ⟨1, _⟩ => rfl)
  have e2 : ∀ k : Fin 128, ridx_main_v62 (ix2 n q) k = (ix2 k q : S128x128.Idx) := fun k =>
    funext fun d => Fin.ext (by match d with | ⟨0, _⟩ => rfl | ⟨1, _⟩ => rfl)
  have e3 : idx_main_v63 (idx_main_v64 (ix2 n q)) = (ix1 q : S128.Idx) :=
    funext fun d => Fin.ext (by match d with | ⟨0, _⟩ => rfl)
  rw [val_main_v67_apply, val_main_v66_apply, val_main_v65_apply, val_main_v62_apply, val_main_v64_apply,
    val_main_v63_apply, e3, val_main_call2_v0_apply, val_main_call2_cst_apply]
  simp only [e1, e2]
  rfl

end Cert.ReferenceIdeal.RefValue

end
-- ==== Proof.Bridge.lean ====
/-
  THE TWO PROGRAMS COMPUTE ONE FUNCTION.

  Fix the argument arrays and a node `n`. Both programs end with the same two rectified layers applied to a hidden row;
  the hidden rows agree column by column (`hidden_bridge`) because

  * the reference contracts the 131-wide mean with the whole first weight, the kernel its three position columns with the
    first three rows and its 128 feature columns with the remaining rows: one sum, split at column 3;
  * on a feature column the reference divides the summed source features by `max (count, 1)`, the kernel multiplies the
    same sum by the reciprocal (`aggX_bridge`);
  * on a position column the reference sums, over the edges landing at `n`, the source's position minus the TARGET's
    position plus the TARGET's offset — and a gather through the target word of an edge landing at `n` reads row `n`, so
    the two target terms are the node's own and leave the sum multiplied by the count —, then divides; the kernel sums the
    source positions alone and restores the node's own part after multiplying by the reciprocal (`aggPos_bridge`). The
    positions are real by the precondition, the offset is real because a hyperbolic tangent always is.
-/
import proofs.«123382_j87875030876558_2_alg».proof.Proof.KernelHost
import proofs.«123382_j87875030876558_2_alg».proof.Proof.RefRow
import proofs.«123382_j87875030876558_2_alg».proof.Proof.RowSpec
import proofs.«123382_j87875030876558_2_alg».proof.Proof.EdgeSpec

noncomputable section

open scoped BigOperators

open Idealize.ShloMosaic Idealize.ShloMosaic.TcCoe Idealize.SL.Sem

namespace Cert.Bridge

open Cert.KernelIdeal Cert.KernelIdeal.Gen Cert.KernelIdeal.HostValue Idealize.ShloMosaic.ValueIdx Cert.NodeUpdate

variable (m : (ℓ : Loc nD τ sig) → Buf (Elt Ideal) ℓ) (c : Dev nD)

set_option hygiene false in
local notation "A0" => (m ((c : Thread nD τ).loc main_arg0) : FVec Ideal S50000x128 .f32)
set_option hygiene false in
local notation "A1" => (m ((c : Thread nD τ).loc main_arg1) : FVec Ideal S50000x3 .f32)
set_option hygiene false in
local notation "A2" => (m ((c : Thread nD τ).loc main_arg2) : IVec S2x800000 32)
set_option hygiene false in
local notation "A3" => (m ((c : Thread nD τ).loc main_arg3) : FVec Ideal S128x128 .f32)
set_option hygiene false in
local notation "A4" => (m ((c : Thread nD τ).loc main_arg4) : FVec Ideal S128 .f32)
set_option hygiene false in
local notation "A5" => (m ((c : Thread nD τ).loc main_arg5) : FVec Ideal S128x3 .f32)
set_option hygiene false in
local notation "A6" => (m ((c : Thread nD τ).loc main_arg6) : FVec Ideal S3 .f32)
set_option hygiene false in
local notation "A7" => (m ((c : Thread nD τ).loc main_arg7) : FVec Ideal S131x128 .f32)
set_option hygiene false in
local notation "A8" => (m ((c : Thread nD τ).loc main_arg8) : FVec Ideal S128 .f32)
set_option hygiene false in
local notation "A9" => (m ((c : Thread nD τ).loc main_arg9) : FVec Ideal S128x128 .f32)
set_option hygiene false in
local notation "A10" => (m ((c : Thread nD τ).loc main_arg10) : FVec Ideal S128 .f32)
set_option hygiene false in
local notation "SX" => (V m c main_v20 : FVec Ideal S50000x128 .f32)
set_option hygiene false in
local notation "SP" => (V m c main_v23 : FVec Ideal S50000x3 .f32)
set_option hygiene false in
local notation "CN" => (V m c main_v28 : FVec Ideal S50000x1 .f32)

/-- The count, on both sides, is one per landing edge. -/
theorem count_bridge (n : Fin 50000) :
    Cert.ReferenceIdeal.Read.val_main_v51 (F := Ideal) A2 (ix1 n) = CN (ix2 n (0 : Fin 1)) := by
  rw [Cert.ReferenceIdeal.RefValue.count_apply, cnt_apply]

/-- A feature column of the mean. -/
theorem aggX_bridge (n : Fin 50000) (k : Fin 128) :
    Cert.ReferenceIdeal.Read.val_main_v56 (F := Ideal) A0 A1 A2 A3 A4 A5 A6 (ix2 n (colX k))
      = aggXMul (row SX n) (CN (ix2 n (0 : Fin 1))) k := by
  have hS : Cert.ReferenceIdeal.Read.val_main_v47 (F := Ideal) A0 A1 A2 A3 A4 A5 A6 (ix2 n (colX k)) = SX (ix2 n k) := by
    rw [Cert.ReferenceIdeal.RefValue.summed_apply, segX_apply]
    refine landSum_congr _ _ _ _ fun e _ => ?_
    rw [Cert.ReferenceIdeal.RefValue.msg_colX, Cert.ReferenceIdeal.RefValue.msgX_apply]
  rw [Cert.ReferenceIdeal.RefValue.mean_apply]
  unfold aggDiv aggXMul
  rw [div_eq_mul_inv]
  beta_reduce
  rw [hS, count_bridge]

/-- A position column of the mean. -/
theorem aggPos_bridge (hP : ∀ i : S50000x3.Idx, ∃ r : ℝ, A1 i = (r : EReal)) (n : Fin 50000) (l : Fin 3) :
    Cert.ReferenceIdeal.Read.val_main_v56 (F := Ideal) A0 A1 A2 A3 A4 A5 A6 (ix2 n (colPos l))
      = aggPosMul (row SP n) (row A1 n) (offset (row A0 n) (mat A3) (vec A4) (mat A5) (vec A6)) (CN (ix2 n (0 : Fin 1))) l := by
  choose pr hpr using hP
  obtain ⟨d, hd⟩ := tanh_real (dense (fun k => relu (dense (row A0 n) (mat A3) (vec A4) k)) (mat A5) (vec A6) l)
  have hoff : offset (row A0 n) (mat A3) (vec A4) (mat A5) (vec A6) l = (d : EReal) := hd
  have hS : Cert.ReferenceIdeal.Read.val_main_v47 (F := Ideal) A0 A1 A2 A3 A4 A5 A6 (ix2 n (colPos l))
      = landSum A2 n fun e => (((pr (ix2 (gRow (srcWord A2 e)) l) : ℝ) : EReal) - ((pr (ix2 n l) : ℝ) : EReal)) + (d : EReal) := by
    rw [Cert.ReferenceIdeal.RefValue.summed_apply]
    refine landSum_congr _ _ _ _ fun e he => ?_
    rw [Cert.ReferenceIdeal.RefValue.msg_colPos, Cert.ReferenceIdeal.RefValue.msgPos_apply, gRow_of_lands _ n he,
      Cert.ReferenceIdeal.RefValue.offset_apply, hoff, hpr, hpr]
  have hSP : row SP n l = landSum A2 n fun e => ((pr (ix2 (gRow (srcWord A2 e)) l) : ℝ) : EReal) := by
    show SP (ix2 n l) = _
    rw [segP_apply]
    exact landSum_congr _ _ _ _ fun e _ => hpr _
  have hP1 : row A1 n l = ((pr (ix2 n l) : ℝ) : EReal) := hpr (ix2 n l)
  have hCN : CN (ix2 n (0 : Fin 1)) = landSum A2 n fun _ => oneE := cnt_apply m c n
  rw [Cert.ReferenceIdeal.RefValue.mean_apply]
  unfold aggDiv aggPosMul
  beta_reduce
  rw [hS, count_bridge, hSP, hP1, hCN, hoff]
  exact aggPos_eq (fun e => (dstWord A2 e).toInt = (n.val : Int)) (fun e => pr (ix2 (gRow (srcWord A2 e)) l))
    (pr (ix2 n l)) d

/-- The hidden rows agree. -/
theorem hidden_bridge (hP : ∀ i : S50000x3.Idx, ∃ r : ℝ, A1 i = (r : EReal)) (n : Fin 50000) (k : Fin 128) :
    Cert.ReferenceIdeal.Read.val_main_v61 (F := Ideal) A0 A1 A2 A3 A4 A5 A6 A7 A8 (ix2 n k)
      = hiddenSplit
          (aggPosMul (row SP n) (row A1 n) (offset (row A0 n) (mat A3) (vec A4) (mat A5) (vec A6)) (CN (ix2 n (0 : Fin 1))))
          (aggXMul (row SX n) (CN (ix2 n (0 : Fin 1))))
          (mat (V m c main_v29 : FVec Ideal S3x128 .f32)) (mat (V m c main_v30 : FVec Ideal S128x128 .f32)) (vec A8) k := by
  have hWp : mat (V m c main_v29 : FVec Ideal S3x128 .f32) = fun l k => mat A7 (colPos l) k :=
    funext fun l => funext fun k => wPos_apply m c l k
  have hWx : mat (V m c main_v30 : FVec Ideal S128x128 .f32) = fun l k => mat A7 (colX l) k :=
    funext fun l => funext fun k => wX_apply m c l k
  rw [Cert.ReferenceIdeal.RefValue.hidden_apply, hWp, hWx]
  exact hidden_eq (fun j => Cert.ReferenceIdeal.Read.val_main_v56 (F := Ideal) A0 A1 A2 A3 A4 A5 A6 (ix2 n j)) (mat A7) (vec A8)
    (aggPosMul (row SP n) (row A1 n) (offset (row A0 n) (mat A3) (vec A4) (mat A5) (vec A6)) (CN (ix2 n (0 : Fin 1))))
    (aggXMul (row SX n) (CN (ix2 n (0 : Fin 1))))
    (fun l => aggPos_bridge m c hP n l) (fun l => aggX_bridge m c n l) k

/-- THE REFERENCE'S RESULT IS THE KERNEL'S WHOLE-ARRAY FUNCTION of the arrays the region finds. -/
theorem result_eq (hP : ∀ i : S50000x3.Idx, ∃ r : ℝ, A1 i = (r : EReal)) :
    Cert.ReferenceIdeal.Read.val_main_v67 (F := Ideal) A0 A1 A2 A3 A4 A5 A6 A7 A8 A9 A10
      = Cert.KernelIdeal.ArrValue.nodeArrV m c := by
  funext i
  obtain ⟨n, q, rfl⟩ : ∃ (n : Fin 50000) (q : Fin 128), i = ix2 n q := ⟨i 0, i 1, eq_ix2 i⟩
  rw [Cert.ReferenceIdeal.RefValue.result_apply,
    show (fun k => Cert.ReferenceIdeal.Read.val_main_v61 (F := Ideal) A0 A1 A2 A3 A4 A5 A6 A7 A8 (ix2 n k)) = _ from
      funext fun k => hidden_bridge m c hP n k]
  unfold Cert.KernelIdeal.ArrValue.nodeArrV Cert.KernelIdeal.ArrValue.nodeArr nodeRow
  rw [V_main_arg0 m c, V_main_arg1 m c, V_main_arg3 m c, V_main_arg4 m c, V_main_arg5 m c, V_main_arg6 m c,
    V_main_arg8 m c, V_main_arg9 m c, V_main_arg10 m c]

end Cert.Bridge

end
-- ==== Proof.Finite.lean ====
/-
  FROM THE PRECONDITION TO REAL POSITIONS.

  The precondition is a conjunction of ten `jnp.all (|a| < +∞)`, one per float argument, joined by `and`; it holds when the
  printed function is all ones. The SECOND conjunct is the positions': reading the chain of `and`s back gives that
  conjunct equal to one, reading the reduction back gives the comparison equal to one at every index, and an extended
  real whose absolute value `max (x, −x)` is below `+∞` is neither infinity: it is a real number (`pos_real`).
  Only the positions are needed: the one law of the certificate that needs finiteness distributes a quotient over the sum
  of the messages' position columns.
-/
import proofs.«123382_j87875030876558_2_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs

instance : Subsingleton S_.Idx := ⟨fun a b => funext fun d => d.elim0⟩

/-- The f32 word of positive infinity is the top of the extended reals. -/
theorem inf_eq_top : Ideal.ofBits .f32 0x7F800000#32 = ⊤ := by simp [Ideal.ofBits, Ideal.ieee]

/-- An extended real whose absolute value compares below `+∞` is a real number. -/
theorem real_of_abs_lt (x : EReal) (h : Ideal.cmp .olt (max x (-x)) ⊤ = 1#1) : ∃ r : ℝ, x = (r : EReal) := by
  have h' : max x (-x) < ⊤ := by
    by_contra hn
    unfold Ideal.cmp at h
    simp [hn] at h
  induction x with
  | bot => simp at h'
  | top => simp at h'
  | coe r => exact ⟨r, rfl⟩

variable [Facts]

/-- THE POSITIONS ARE REAL under the precondition. -/
theorem pos_real (a0 : FVec Ideal S50000x128 .f32) (a1 : FVec Ideal S50000x3 .f32) (a2 : IVec S2x800000 32)
    (a3 : FVec Ideal S128x128 .f32) (a4 : FVec Ideal S128 .f32) (a5 : FVec Ideal S128x3 .f32) (a6 : FVec Ideal S3 .f32)
    (a7 : FVec Ideal S131x128 .f32) (a8 : FVec Ideal S128 .f32) (a9 : FVec Ideal S128x128 .f32) (a10 : FVec Ideal S128 .f32)
    (h : fn (F := Ideal) a0 a1 a2 a3 a4 a5 a6 a7 a8 a9 a10 = fun _ => 1#1) (i : S50000x3.Idx) :
    ∃ r : ℝ, a1 i = (r : EReal) := by
  have e := congrFun h ValueIdx.ix0
  dsimp only [fn, fn_part1, fn_part2] at e
  simp only [andi, IntOp.andi_eq_one] at e
  obtain ⟨⟨⟨⟨⟨⟨⟨⟨⟨-, h7⟩, -⟩, -⟩, -⟩, -⟩, -⟩, -⟩, -⟩, -⟩ := e
  have hp := Host.reduce_andi_all _ _ _ _ _ h7 i
  refine real_of_abs_lt (a1 i) ?_
  rw [← inf_eq_top]
  exact hp

end Cert.Pre_finite_inputs.Finite

end
-- ==== Proof.lean ====
/- The proof of `Cert.Claim`: a graph layer's node update, computed by a kernel and by a reference, is one function of the
   arguments on the extended reals when every float argument is finite.

   Both programs sum, per node, messages from its incoming edges and feed the mean to a two-layer rectified network added to
   the node's features. The reference builds each edge's 131-wide message — the source's position minus the target's
   plus the target's offset, then the source's features —, sums the messages by target, divides by `max (count, 1)` and
   contracts with the whole first weight. The kernel sums only the source's position and features by target, keeps the
   count, and per block of 2000 nodes restores the node's own position and offset after multiplying by the reciprocal
   `1 / max (count, 1)`, contracting the three position columns and the 128 feature columns separately.

   The modules: RowSpec (one node's update as functions of its row, and the three laws: a sum over 131 columns splits at
   column 3; a quotient by `max (c, 1)` is a product with its reciprocal; for REAL positions and offset the quotient of
   the summed messages is the product form) · EdgeSpec (which node an edge lands at, which row a gather reads, and that
   they agree for a landing edge) · KernelRow (the body's arithmetic at an index) · KernelBlocksA/B/C and KernelValue
   (each window's block as rows of its array; the result array as one whole-array function; the kernel's run) ·
   KernelHost (the arrays the host wrote before the region, at an index) · RefRow (the reference at an index) · Finite
   (the positions are real under the precondition) · Bridge (the two programs' hidden rows agree, so their results do).
   Lib*.lean are general reads of a row gather, a row scatter, a scatter into a vector, matrix products and column
   layouts at an index.

   The frames of the two kernel programs are the generated ones; the reference's is its generated run with the result
   dropped; no operation was rewritten by the idealization, so `preserves` is trivial. -/
import proofs.«123382_j87875030876558_2_alg».proof.Defs
import proofs.«123382_j87875030876558_2_alg».proof.Proof.Gen.Kernel
import proofs.«123382_j87875030876558_2_alg».proof.Proof.Gen.Kernel.Skeleton
import proofs.«123382_j87875030876558_2_alg».proof.Proof.Gen.Kernel.Launch
import proofs.«123382_j87875030876558_2_alg».proof.Proof.Gen.Kernel.Points
import proofs.«123382_j87875030876558_2_alg».proof.Proof.Gen.Kernel.Frame
import proofs.«123382_j87875030876558_2_alg».proof.Proof.Gen.KernelIdeal
import proofs.«123382_j87875030876558_2_alg».proof.Proof.Gen.KernelIdeal.Skeleton
import proofs.«123382_j87875030876558_2_alg».proof.Proof.Gen.KernelIdeal.Launch
import proofs.«123382_j87875030876558_2_alg».proof.Proof.Gen.KernelIdeal.Points
import proofs.«123382_j87875030876558_2_alg».proof.Proof.Gen.KernelIdeal.Frame
import proofs.«123382_j87875030876558_2_alg».proof.Proof.Gen.ReferenceIdeal
import proofs.«123382_j87875030876558_2_alg».proof.Proof.Gen.Pre_finite_inputs
import proofs.«123382_j87875030876558_2_alg».proof.Proof.Gen.KernelIdeal.Value
import proofs.«123382_j87875030876558_2_alg».proof.Proof.Gen.ReferenceIdeal.Run
import proofs.«123382_j87875030876558_2_alg».proof.Proof.Gen.ReferenceIdeal.Read
import proofs.«123382_j87875030876558_2_alg».proof.Proof.KernelValue
import proofs.«123382_j87875030876558_2_alg».proof.Proof.Bridge
import proofs.«123382_j87875030876558_2_alg».proof.Proof.Finite
import Idealize.ShloMosaic.Adequacy
import Idealize.ShloMosaic.Init

noncomputable section

namespace Cert.Proof

open Idealize.ShloMosaic Idealize.SL.Sem

namespace NodeClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the whole-array function of the arrays the region finds, and
    the reference's at its composed term of arguments that agree; the positions being real under the precondition, the
    two are one function. -/
theorem algebraic : Cert.algebraic_KernelIdeal_ReferenceIdeal := by
  intro m ρ m' ρ' hpre hagree
  refine ⟨fun c => Cert.KernelIdeal.ArrValue.nodeArrV m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v67_eq, h0, h1, h2, h3, h4, h5, h6, h7, h8, h9, h10]
  exact Cert.Bridge.result_eq m c fun i =>
    Cert.Pre_finite_inputs.Finite.pos_real _ _ _ _ _ _ _ _ _ _ _ (hpre c) i

end NodeClaims

theorem claim : Cert.Claim :=
  ⟨Cert.Kernel.Gen.facts, Cert.KernelIdeal.Gen.facts, Cert.ReferenceIdeal.Gen.facts, Cert.Pre_finite_inputs.Gen.facts,
    NodeClaims.frame_k, NodeClaims.frame_ki, NodeClaims.frame_ri, NodeClaims.preserves, NodeClaims.algebraic⟩

end Cert.Proof

end
